-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x1 : Shape := ⟨2, ![100000, 1]⟩
abbrev S1 : Shape := ⟨1, ![1]⟩
abbrev S3 : Shape := ⟨1, ![3]⟩
abbrev S3200000 : Shape := ⟨1, ![3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S100000x3 .f32) (main_arg1 : FVec F S100000x1 .f32) (main_arg2 : FVec F S1 .f32) (main_arg3 : FVec F S3 .f32) (main_arg4 : IVec S3200000 32) (main_arg5 : IVec S3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S100000x3 : Shape := ⟨2, ![100000, 3]⟩
abbrev S100000x1 : Shape := ⟨2, ![100000, 1]⟩
abbrev S1 : Shape := ⟨1, ![1]⟩
abbrev S3 : Shape := ⟨1, ![3]⟩
abbrev S3200000 : Shape := ⟨1, ![3200000]⟩
abbrev S3x100000 : Shape := ⟨2, ![3, 100000]⟩
abbrev S1x100000 : Shape := ⟨2, ![1, 100000]⟩
abbrev S4x100000 : Shape := ⟨2, ![4, 100000]⟩
abbrev S_ : Shape := ⟨0, ![]⟩
abbrev S3200000x1 : Shape := ⟨2, ![3200000, 1]⟩
abbrev S3x3200000 : Shape := ⟨2, ![3, 3200000]⟩
abbrev S4x3200000 : Shape := ⟨2, ![4, 3200000]⟩
abbrev S1x1 : Shape := ⟨2, ![1, 1]⟩
abbrev S3x1 : Shape := ⟨2, ![3, 1]⟩
abbrev S5x3200000 : Shape := ⟨2, ![5, 3200000]⟩
abbrev S3x128000 : Shape := ⟨2, ![3, 128000]⟩
abbrev S4x128000 : Shape := ⟨2, ![4, 128000]⟩
abbrev S5x128000 : Shape := ⟨2, ![5, 128000]⟩
abbrev S1x128000 : Shape := ⟨2, ![1, 128000]⟩
abbrev S128000 : Shape := ⟨1, ![128000]⟩
abbrev S3200000x5 : Shape := ⟨2, ![3200000, 5]⟩
abbrev S100000x5 : Shape := ⟨2, ![100000, 5]⟩
abbrev S100000x4 : Shape := ⟨2, ![100000, 4]⟩

abbrev nBuf : Space → Nat
  | .hbm => 42
  | .vmem => 8
  | .smem => 0
  | _ => 0

abbrev bufTy : (tb : Table) → Fin (tcTables nBuf tb) → BufTy
  | .hbm, ⟨0, _⟩ => ⟨S100000x3, .f32⟩
  | .hbm, ⟨1, _⟩ => ⟨S100000x1, .f32⟩
  | .hbm, ⟨2, _⟩ => ⟨S1, .f32⟩
  | .hbm, ⟨3, _⟩ => ⟨S3, .f32⟩
  | .hbm, ⟨4, _⟩ => ⟨S3200000, .i32⟩
  | .hbm, ⟨5, _⟩ => ⟨S3200000, .i32⟩
  | .hbm, ⟨6, _⟩ => ⟨S3x100000, .f32⟩
  | .hbm, ⟨7, _⟩ => ⟨S1x100000, .f32⟩
  | .hbm, ⟨8, _⟩ => ⟨S4x100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3x3200000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S4x3200000, .f32⟩
  | .hbm, ⟨27, _⟩ => ⟨S1x1, .f32⟩
  | .hbm, ⟨28, _⟩ => ⟨S3x1, .f32⟩
  | .hbm, ⟨29, _⟩ => ⟨S5x3200000, .f32⟩
  | .hbm, ⟨30, _⟩ => ⟨S3200000x5, .f32⟩
  | .hbm, ⟨31, _⟩ => ⟨S_, .f32⟩
  | .hbm, ⟨32, _⟩ => ⟨S100000x5, .f32⟩
  | .hbm, ⟨33, _⟩ => ⟨S3200000x1, .i32⟩
  | .hbm, ⟨34, _⟩ => ⟨S100000x5, .f32⟩
  | .hbm, ⟨35, _⟩ => ⟨S100000x4, .f32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x4, .f32⟩
  | .hbm, ⟨41, _⟩ => ⟨S100000x4, .f32⟩
  | .local _ .vmem, ⟨0, _⟩ => ⟨S3x128000, .f32⟩
  | .local _ .vmem, ⟨1, _⟩ => ⟨S3x128000, .f32⟩
  | .local _ .vmem, ⟨2, _⟩ => ⟨S4x128000, .f32⟩
  | .local _ .vmem, ⟨3, _⟩ => ⟨S4x128000, .f32⟩
  | .local _ .vmem, ⟨4, _⟩ => ⟨S1x1, .f32⟩
  | .local _ .vmem, ⟨5, _⟩ => ⟨S3x1, .f32⟩
  | .local _ .vmem, ⟨6, _⟩ => ⟨S5x128000, .f32⟩
  | .local _ .vmem, ⟨7, _⟩ => ⟨S5x128000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5x128000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S100000x3_S3x100000_1_0 : S100000x3.Transposes [1, 0] S3x100000
  transposes_S100000x1_S1x100000_1_0 : S100000x1.Transposes [1, 0] S1x100000
  concatenates_S3x100000_S1x100000_S4x100000_d0 : Shape.Concatenates [S3x100000, S1x100000] S4x100000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S1_S1x1 : S1.ShapeCasts S1x1
  shapeCasts_S3_S3x1 : S3.ShapeCasts S3x1
  inb_S3x128000_S3x128000_0_0 : ∀ a, (![0, 0] : Fin 2 → Nat) a + S3x128000.size a ≤ S3x128000.size a
  h_S3x128000 : 0 < S3x128000.numel
  shapeCasts_S3x128000_S3x128000 : S3x128000.ShapeCasts S3x128000
  inb_S4x128000_S4x128000_0_0 : ∀ a, (![0, 0] : Fin 2 → Nat) a + S4x128000.size a ≤ S4x128000.size a
  h_S4x128000 : 0 < S4x128000.numel
  shapeCasts_S4x128000_S4x128000 : S4x128000.ShapeCasts S4x128000
  slices_S4x128000_o0_0_S3x128000 : S4x128000.Slices ![0, 0] S3x128000
  slices_S4x128000_o3_0_S1x128000 : S4x128000.Slices ![3, 0] S1x128000
  reduces_S3x128000_S128000 : S3x128000.Reduces [0] S128000
  shapeCasts_S128000_S1x128000 : S128000.ShapeCasts S1x128000
  broadcasts_S1x128000_S3x128000 : S1x128000.Broadcasts S3x128000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x128000 : S1x1.Broadcasts S1x128000
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x128000 : S3x1.Broadcasts S3x128000
  inb_S5x128000_S1x128000_0_0 : ∀ a, (![0, 0] : Fin 2 → Nat) a + S1x128000.size a ≤ S5x128000.size a
  h_S1x128000 : 0 < S1x128000.numel
  inb_S5x128000_S3x128000_1_0 : ∀ a, (![1, 0] : Fin 2 → Nat) a + S3x128000.size a ≤ S5x128000.size a
  inb_S5x128000_S1x128000_4_0 : ∀ a, (![4, 0] : Fin 2 → Nat) a + S1x128000.size a ≤ S5x128000.size a
  transposes_S5x3200000_S3200000x5_1_0 : S5x3200000.Transposes [1, 0] S3200000x5
  bcast_S_S100000x5 : S_.BroadcastsInDim S100000x5 (![] : Fin 0 → Fin S100000x5.rank)
  slices_S100000x5_S100000x4_0_0 : S100000x5.Slices ![0, 0] S100000x4
  slices_S100000x5_S100000x1_0_4 : S100000x5.Slices ![0, 4] S100000x1
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  gather_S3x100000_S3200000x1_S3x3200000_0_1_n_n_1_1_31_wf : GatherDims.WF S3x100000 S3200000x1 S3x3200000 [0] [1] [] [1] [] 1 ![3, 1]
  gather_S4x100000_S3200000x1_S4x3200000_0_1_n_n_1_1_41_wf : GatherDims.WF S4x100000 S3200000x1 S4x3200000 [0] [1] [] [1] [] 1 ![4, 1]
  scatter_S100000x5_S3200000x1_S3200000x5_1_0_0_1_wf : ScatterDims.WF S100000x5 S3200000x1 S3200000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128000.size a ≤ S3x3200000.size a
  hwx0_0 : ∀ i : grid0.Coords, EltTy.bits .f32 = 32 ∨ (Rect.block (s := S3x3200000) S3x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128000.size a ≤ S4x3200000.size a
  hwx0_1 : ∀ i : grid0.Coords, EltTy.bits .f32 = 32 ∨ (Rect.block (s := S4x3200000) S4x128000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1.size a ≤ S3x1.size a
  hwx0_3 : ∀ i : grid0.Coords, EltTy.bits .f32 = 32 ∨ (Rect.block (s := S3x1) S3x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5x128000.size a ≤ S5x3200000.size a
  hwx0_4 : ∀ i : grid0.Coords, EltTy.bits .f32 = 32 ∨ (Rect.block (s := S5x3200000) S5x128000.size (cc0_transform_4 i) (hinb0_4 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def gather_S4x100000_S3200000x1_S4x3200000_0_1_n_n_1_1_41 : GatherDims S4x100000 S3200000x1 S4x3200000 where
  offsetDims := [0]
  collapsedSliceDims := [1]
  operandBatchingDims := []
  startIndicesBatchingDims := []
  startIndexMap := [1]
  indexVectorDim := 1
  sliceSizes := ![4, 1]
  wf := gather_S4x100000_S3200000x1_S4x3200000_0_1_n_n_1_1_41_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf

abbrev win0_0 : Pipeline.Window sig grid0 :=
  Pipeline.Window.ofSpec (Memref.whole main_v9) S3x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S3x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5x128000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x1 : Shape := ⟨2, ![100000, 1]⟩
abbrev S1 : Shape := ⟨1, ![1]⟩
abbrev S3 : Shape := ⟨1, ![3]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S1x1 : Shape := ⟨2, ![1, 1]⟩
abbrev S1x3 : Shape := ⟨2, ![1, 3]⟩
abbrev S3200000x4 : Shape := ⟨2, ![3200000, 4]⟩
abbrev S100000x4 : Shape := ⟨2, ![100000, 4]⟩

abbrev nBuf : Space → Nat
  | .hbm => 68
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x1, .f32⟩
  | .hbm, ⟨2, _⟩ => ⟨S1, .f32⟩
  | .hbm, ⟨3, _⟩ => ⟨S3, .f32⟩
  | .hbm, ⟨4, _⟩ => ⟨S3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x3, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x3, .f32⟩
  | .hbm, ⟨24, _⟩ => ⟨S3200000x3, .f32⟩
  | .hbm, ⟨25, _⟩ => ⟨S3200000x3, .f32⟩
  | .hbm, ⟨26, _⟩ => ⟨S_, .f32⟩
  | .hbm, ⟨27, _⟩ => ⟨S3200000, .f32⟩
  | .hbm, ⟨28, _⟩ => ⟨S3200000x1, .f32⟩
  | .hbm, ⟨29, _⟩ => ⟨S3200000x1, .f32⟩
  | .hbm, ⟨30, _⟩ => ⟨S_, .f32⟩
  | .hbm, ⟨31, _⟩ => ⟨S3200000x1, .f32⟩
  | .hbm, ⟨32, _⟩ => ⟨S3200000x1, .f32⟩
  | .hbm, ⟨33, _⟩ => ⟨S3200000x3, .f32⟩
  | .hbm, ⟨34, _⟩ => ⟨S3200000x3, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x1, .f32⟩
  | .hbm, ⟨44, _⟩ => ⟨S1x1, .f32⟩
  | .hbm, ⟨45, _⟩ => ⟨S3200000x1, .f32⟩
  | .hbm, ⟨46, _⟩ => ⟨S3200000x1, .f32⟩
  | .hbm, ⟨47, _⟩ => ⟨S3200000x3, .f32⟩
  | .hbm, ⟨48, _⟩ => ⟨S3200000x3, .f32⟩
  | .hbm, ⟨49, _⟩ => ⟨S1x3, .f32⟩
  | .hbm, ⟨50, _⟩ => ⟨S3200000x3, .f32⟩
  | .hbm, ⟨51, _⟩ => ⟨S3200000x3, .f32⟩
  | .hbm, ⟨52, _⟩ => ⟨S3200000x4, .f32⟩
  | .hbm, ⟨53, _⟩ => ⟨S_, .f32⟩
  | .hbm, ⟨54, _⟩ => ⟨S100000x4, .f32⟩
  | .hbm, ⟨55, _⟩ => ⟨S3200000x1, .i32⟩
  | .hbm, ⟨56, _⟩ => ⟨S100000x4, .f32⟩
  | .hbm, ⟨57, _⟩ => ⟨S_, .f32⟩
  | .hbm, ⟨58, _⟩ => ⟨S3200000x1, .f32⟩
  | .hbm, ⟨59, _⟩ => ⟨S_, .f32⟩
  | .hbm, ⟨60, _⟩ => ⟨S100000x1, .f32⟩
  | .hbm, ⟨61, _⟩ => ⟨S3200000x1, .i32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x4, .f32⟩
  | .hbm, ⟨67, _⟩ => ⟨S100000x4, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S3_S1x3_1 : S3.BroadcastsInDim S1x3 (![1] : Fin 1 → Fin S1x3.rank)
  bcast_S1x3_S3200000x3_0_1 : S1x3.BroadcastsInDim S3200000x3 (![0, 1] : Fin 2 → Fin S3200000x3.rank)
  concatenates_S3200000x1_S3200000x3_S3200000x4_d1 : Shape.Concatenates [S3200000x1, S3200000x3] S3200000x4 1
  bcast_S_S100000x4 : S_.BroadcastsInDim S100000x4 (![] : Fin 0 → Fin S100000x4.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  gather_S100000x3_S3200000x1_S3200000x3_1_0_n_n_0_1_13_wf : GatherDims.WF S100000x3 S3200000x1 S3200000x3 [1] [0] [] [0] [] 1 ![1, 3]
  gather_S100000x1_S3200000x1_S3200000x1_1_0_n_n_0_1_11_wf : GatherDims.WF S100000x1 S3200000x1 S3200000x1 [1] [0] [] [0] [] 1 ![1, 1]
  scatter_S100000x4_S3200000x1_S3200000x4_1_0_0_1_wf : ScatterDims.WF S100000x4 S3200000x1 S3200000x4 [1] [0] [0] 1
  scatter_S100000x1_S3200000x1_S3200000x1_1_0_0_1_wf : ScatterDims.WF S100000x1 S3200000x1 S3200000x1 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibColumnSum.lean ====
/-
  The sum of each COLUMN of a rank-2 vector over the extended reals: reducing an [a, b] vector along axis 0 leaves a
  length-`b` vector whose entry `l` is the sum of the `a` entries of column `l`.
-/
import Idealize.ShloMosaic.Lib.ValueIdx
import Idealize.ShloMosaic.PureOps.Ideal.Laws

noncomputable section

namespace Cert.LibColumnSum

open Idealize.ShloMosaic Idealize.ShloMosaic.ValueIdx

variable {a b : ℕ} {φ : FTy}

/-- The reduced index `l` of a column reduction with the row `k` put back is `(k, l)`. -/
theorem lift_col (h : (⟨2, ![a, b]⟩ : Shape).Reduces [0] ⟨1, ![b]⟩) (l : Fin b) (k : Fin a) :
    h.lift (ix1 l) k = ix2 k l := by
  funext c; apply Fin.ext
  fin_cases c <;> rfl

/-- A column sum at column `l` is the sum of that column's entries. -/
theorem colsum_apply (src : FVec Ideal ⟨2, ![a, b]⟩ φ) (acc : BitVec φ.bits)
    (h : (⟨2, ![a, b]⟩ : Shape).Reduces [0] ⟨1, ![b]⟩)
    (hφ : FKind.Formats φ) (hacc : acc = FKind.add.neutral φ hφ) (l : Fin b) :
    multiReduction .add [0] ⟨1, ![b]⟩ src acc h hφ hacc (ix1 l) = ∑ k : Fin a, src (ix2 k l) :=
  (Ideal.multiReduction_add_single src acc h hφ hacc (ix1 l)).trans
    (Finset.sum_congr rfl fun k _ => congrArg src (lift_col h l k))

end Cert.LibColumnSum

end
-- ==== Proof.EdgeRows.lean ====
/-
  THE FIVE ROWS COMPUTED PER EDGE, from the gathered columns.  With `L` edges side by side, `A : [3, L]` the source
  positions, `B : [4, L]` the destination positions (rows 0–2) and the destination's scalar feature (row 3), and
  weights `u : [1, 1]`, `v : [3, 1]`, the entry `(r, l)` for the edge in column `l` is, with `d k = B[k, l] − A[k, l]`:
    row 0      `u · B[3, l]`
    row 1 + k  `v[k] · (B[3, l] · d k / max (√(Σ_j d j · d j)) ε)`        (k = 0, 1, 2; ε the word 0x2B8CBCCC)
    row 4      `1`
  An entry depends only on column `l` of `A` and `B`: two pairs of arrays that agree on a column give the same entry
  there, whatever their widths (`entry_congr`) — a block of columns cut from wider arrays computes the wider arrays'
  entries.
-/
import Idealize.ShloMosaic.PureOps.Ideal
import Idealize.ShloMosaic.Lib.ValueIdx

noncomputable section

open scoped BigOperators

namespace Cert.EdgeRows

open Idealize.ShloMosaic Idealize.ShloMosaic.ValueIdx

section
variable {L : ℕ} (A : (⟨2, ![3, L]⟩ : Shape).Idx → EReal) (B : (⟨2, ![4, L]⟩ : Shape).Idx → EReal)
  (u : (⟨2, ![1, 1]⟩ : Shape).Idx → EReal) (v : (⟨2, ![3, 1]⟩ : Shape).Idx → EReal)

/-- The relative position's component `k` in column `l`: destination minus source. -/
def diff (k : Fin 3) (l : Fin L) : EReal := B (ix2 (Fin.castSucc k) l) - A (ix2 k l)

/-- The guarded length of the relative position in column `l`. -/
def safeLen (l : Fin L) : EReal :=
  max (Ideal.sqrt (∑ j : Fin 3, diff A B j l * diff A B j l)) (Ideal.ofBits .f32 0x2B8CBCCC#32)

/-- The direction entry `k` in column `l`. -/
def dirEntry (k : Fin 3) (l : Fin L) : EReal :=
  v (ix2 k (0 : Fin 1)) * (B (ix2 (3 : Fin 4) l) * Ideal.div (diff A B k l) (safeLen A B l))

/-- Entry `(r, l)`, row by row. -/
def entry : Fin 5 → Fin L → EReal
  | ⟨0, _⟩, l => u (ix2 (0 : Fin 1) (0 : Fin 1)) * B (ix2 (3 : Fin 4) l)
  | ⟨1, _⟩, l => dirEntry A B v 0 l
  | ⟨2, _⟩, l => dirEntry A B v 1 l
  | ⟨3, _⟩, l => dirEntry A B v 2 l
  | ⟨4, _⟩, _ => Ideal.ofBits .f32 0x3F800000#32

theorem entry_zero (l : Fin L) : entry A B u v 0 l = u (ix2 (0 : Fin 1) (0 : Fin 1)) * B (ix2 (3 : Fin 4) l) := rfl

theorem entry_succ (k : Fin 3) (l : Fin L) : entry A B u v ⟨k.val + 1, by omega⟩ l = dirEntry A B v k l := by
  fin_cases k <;> rfl

theorem entry_four (l : Fin L) : entry A B u v 4 l = Ideal.ofBits .f32 0x3F800000#32 := rfl

end

/-- Arrays of two widths that agree on one column (column `l` of the narrow pair, column `e` of the wide pair), with
    equal weights, have the same entries there. -/
theorem entry_congr {L L' : ℕ} (A : (⟨2, ![3, L]⟩ : Shape).Idx → EReal) (B : (⟨2, ![4, L]⟩ : Shape).Idx → EReal)
    (A' : (⟨2, ![3, L']⟩ : Shape).Idx → EReal) (B' : (⟨2, ![4, L']⟩ : Shape).Idx → EReal)
    (u u' : (⟨2, ![1, 1]⟩ : Shape).Idx → EReal) (v v' : (⟨2, ![3, 1]⟩ : Shape).Idx → EReal) (l : Fin L) (e : Fin L')
    (hA : ∀ k : Fin 3, A (ix2 k l) = A' (ix2 k e)) (hB : ∀ k : Fin 4, B (ix2 k l) = B' (ix2 k e))
    (hu : u (ix2 (0 : Fin 1) (0 : Fin 1)) = u' (ix2 (0 : Fin 1) (0 : Fin 1)))
    (hv : ∀ k : Fin 3, v (ix2 k (0 : Fin 1)) = v' (ix2 k (0 : Fin 1))) (r : Fin 5) :
    entry A B u v r l = entry A' B' u' v' r e := by
  have hd : ∀ k : Fin 3, diff A B k l = diff A' B' k e := fun k => by unfold diff; rw [hA, hB]
  have hg : safeLen A B l = safeLen A' B' e := by unfold safeLen; simp only [hd]
  have hdir : ∀ k : Fin 3, dirEntry A B v k l = dirEntry A' B' v' k e := fun k => by
    unfold dirEntry; rw [hv, hB, hd, hg]
  match r with
  | ⟨0, _⟩ => show u _ * B _ = u' _ * B' _; rw [hu, hB]
  | ⟨1, _⟩ => exact hdir 0
  | ⟨2, _⟩ => exact hdir 1
  | ⟨3, _⟩ => exact hdir 2
  | ⟨4, _⟩ => rfl

end Cert.EdgeRows

end
-- ==== Proof.KernelBlock.lean ====
/-
  What one grid step of the edge kernel leaves in its output block, entry by entry, on the extended reals.

  The step reads a block `A : [3, L]` of source positions, a block `B : [4, L]` whose rows 0–2 are destination
  positions and whose row 3 is the destination's scalar feature, and the weights `u : [1, 1]`, `v : [3, 1]`
  (`L` = 128000 edges per step).  It leaves the [5, L] block whose entry `(r, l)` is the five-row formula of
  EdgeRows.lean (`EdgeRows.entry A B u v r l`): the scalar row, the three direction rows, the row of ones.
  The three stores of the body write rows 0, 1–3 and 4; together they tile the block.
-/
import proofs.«109773_j34823594836411_2_alg».proof.Proof.Gen.KernelIdeal.Frame
import proofs.«109773_j34823594836411_2_alg».proof.Proof.LibKeepdims
import proofs.«109773_j34823594836411_2_alg».proof.Proof.LibColumnSum
import proofs.«109773_j34823594836411_2_alg».proof.Proof.EdgeRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Block

open Cert.KernelIdeal Cert.KernelIdeal.Gen Cert.EdgeRows

/-- The feature row of `B` is its row 3. -/
theorem feat_apply (B : Vec Ideal S4x128000 .f32) (l : Fin 128000) :
    k0_pay2 (F := Ideal) B (ix2 (0 : Fin 1) l) = B (ix2 (3 : Fin 4) l) := by
  unfold k0_pay2 k0_pay1
  rw [shapeCast_self]
  exact slice2_axis0_apply 3 B slices_S4x128000_o3_0_S1x128000 (0 : Fin 1) l (3 : Fin 4) rfl

/-- Row 0 of the block: the scalar weight times the feature. -/
theorem scalar_row_apply (B : Vec Ideal S4x128000 .f32) (u : Vec Ideal S1x1 .f32) (l : Fin 128000) :
    k0_pay3 (F := Ideal) B u (ix2 (0 : Fin 1) l) = u (ix2 (0 : Fin 1) (0 : Fin 1)) * B (ix2 (3 : Fin 4) l) := by
  unfold k0_pay3
  show broadcastTo S1x128000 (shapeCast S1x1 u shapeCasts_S1x1_S1x1) broadcasts_S1x1_S1x128000 (ix2 (0 : Fin 1) l)
    * k0_pay2 (F := Ideal) B (ix2 (0 : Fin 1) l) = _
  rw [shapeCast_self, Cert.LibKeepdims.broadcastTo_col_apply, feat_apply]

/-- Rows 0–2 of `B` are the destination positions. -/
theorem dst_rows_apply (B : Vec Ideal S4x128000 .f32) (k : Fin 3) (l : Fin 128000) :
    extractStridedSlice S3x128000 ![0, 0] (k0_pay1 (F := Ideal) B) slices_S4x128000_o0_0_S3x128000 (ix2 k l)
      = B (ix2 (Fin.castSucc k) l) := by
  unfold k0_pay1
  rw [shapeCast_self]
  exact slice2_axis0_apply 0 B slices_S4x128000_o0_0_S3x128000 k l (Fin.castSucc k) (Nat.zero_add _).symm

/-- The sum down the three rows of a block, in lane `l`. -/
theorem sum_rows_apply (D : FVec Ideal S3x128000 .f32) (l : Fin 128000) :
    multiReduction .add [0] S128000 D 0x00000000#32 reduces_S3x128000_S128000 (.inl rfl) rfl (ix1 l)
      = ∑ j : Fin 3, D (ix2 j l) :=
  Cert.LibColumnSum.colsum_apply D 0x00000000#32 reduces_S3x128000_S128000 (.inl rfl) rfl l

/-- A lane vector kept as one row. -/
theorem keep_row_apply (s : FVec Ideal S128000 .f32) (l : Fin 128000) :
    shapeCast S1x128000 s shapeCasts_S128000_S1x128000 (ix2 (0 : Fin 1) l) = s (ix1 l) :=
  shapeCast_a_1a_apply s shapeCasts_S128000_S1x128000 (0 : Fin 1) l

/-- One row spread over the three rows. -/
theorem spread_row_apply (r : FVec Ideal S1x128000 .f32) (k : Fin 3) (l : Fin 128000) :
    broadcastTo S3x128000 r broadcasts_S1x128000_S3x128000 (ix2 k l) = r (ix2 (0 : Fin 1) l) :=
  broadcastTo_1b_ab_apply r broadcasts_S1x128000_S3x128000 k l

/-- The three weights spread along the lanes. -/
theorem spread_col_apply (v : FVec Ideal S3x1 .f32) (k : Fin 3) (l : Fin 128000) :
    broadcastTo S3x128000 v broadcasts_S3x1_S3x128000 (ix2 k l) = v (ix2 k (0 : Fin 1)) :=
  Cert.LibKeepdims.broadcastTo_col_apply v broadcasts_S3x1_S3x128000 k l

/-- A square root entry by entry. -/
theorem sqrt_apply {s : Shape} (x : FVec Ideal s .f32) (i : s.Idx) : sqrt x i = Ideal.sqrt (x i) := rfl

/-- Rows 1–3 of the block: each weight times the feature times the normalised relative position. -/
theorem direction_rows_apply (A : Vec Ideal S3x128000 .f32) (B : Vec Ideal S4x128000 .f32) (v : Vec Ideal S3x1 .f32)
    (k : Fin 3) (l : Fin 128000) :
    k0_pay4 (F := Ideal) A B v (ix2 k l) = dirEntry (L := 128000) A B v k l := by
  unfold k0_pay4 dirEntry safeLen diff
  simp only [mulf_apply, divf_apply, subf_apply, maximumf_apply, sqrt_apply, broadcast_apply, spread_col_apply,
    spread_row_apply, keep_row_apply, dst_rows_apply, feat_apply, shapeCast_self]
  refine congrArg (fun s => v (ix2 k (0 : Fin 1)) * (B (ix2 (3 : Fin 4) l) *
    Ideal.div (B (ix2 (Fin.castSucc k) l) - A (ix2 k l)) (max (Ideal.sqrt s) (Ideal.ofBits .f32 0x2B8CBCCC#32)))) ?_
  refine (Cert.LibColumnSum.colsum_apply _ _ _ _ _ l).trans ?_
  refine Finset.sum_congr rfl fun j _ => ?_
  simp only [mulf_apply, subf_apply, dst_rows_apply]

/-- Row 4 of the block: one. -/
theorem ones_row_apply (l : Fin 128000) :
    k0_pay5 (F := Ideal) (ix2 (0 : Fin 1) l) = Ideal.ofBits .f32 0x3F800000#32 := rfl

/-! ## The whole block -/

/-- The block as a function of its index: the five-row formula at the index's coordinates. -/
def block (A : Vec Ideal S3x128000 .f32) (B : Vec Ideal S4x128000 .f32) (u : Vec Ideal S1x1 .f32)
    (v : Vec Ideal S3x1 .f32) (y : S5x128000.Idx) : EReal :=
  entry (L := 128000) A B u v ⟨(y 0).val, idx2_lt0 y⟩ ⟨(y 1).val, idx2_lt1 y⟩

theorem block_apply (A : Vec Ideal S3x128000 .f32) (B : Vec Ideal S4x128000 .f32) (u : Vec Ideal S1x1 .f32)
    (v : Vec Ideal S3x1 .f32) (y : S5x128000.Idx) (r : Fin 5) (l : Fin 128000)
    (h0 : (y 0).val = r.val) (h1 : (y 1).val = l.val) : block A B u v y = entry (L := 128000) A B u v r l := by
  unfold block
  have e0 : (⟨(y 0).val, idx2_lt0 y⟩ : Fin 5) = r := Fin.ext h0
  have e1 : (⟨(y 1).val, idx2_lt1 y⟩ : Fin 128000) = l := Fin.ext h1
  rw [e0, e1]

theorem hz : (![0, 0] : Fin 2 → Nat) = fun _ => 0 := funext fun a => by fin_cases a <;> rfl

/-- WHAT ONE STEP LEAVES in the output block, whatever staging buffers it runs on: `block` of the four input blocks.
    Each of the three stores writes, at its own rectangle, the rows of `block` it covers. -/
theorem out_block (c : Dev nD) (i : grid0.Coords) (a1 : Memref sig .tc .vmem S3x128000 .f32) (h1 : a1.IsWhole)
    (a2 : Memref sig .tc .vmem S4x128000 .f32) (h2 : a2.IsWhole) (a3 : Memref sig .tc .vmem S1x1 .f32) (h3 : a3.IsWhole)
    (a4 : Memref sig .tc .vmem S3x1 .f32) (h4 : a4.IsWhole) (a5 : Memref sig .tc .vmem S5x128000 .f32) (h5 : a5.IsWhole)
    (A : Vec Ideal S3x128000 .f32) (B : Vec Ideal S4x128000 .f32) (u : Vec Ideal S1x1 .f32) (v : Vec Ideal S3x1 .f32) :
    out0_A_4 (F := Ideal) c i a1 h1 a2 h2 a3 h3 a4 h4 a5 h5 A B u v = block A B u v := by
  funext y
  unfold out0_A_4
  rw [View.read_writes_eq_canon _ _ _ (cover0_A_4 c i a1 h1 a2 h2 a3 h3 a4 h4 a5 h5 A B u v)]
  refine View.canon_apply_of_pieces (block A B u v) _ (fun p hp j => ?_) y
    (cover0_A_4 c i a1 h1 a2 h2 a3 h3 a4 h4 a5 h5 A B u v y)
  unfold kernelRun0_A at hp
  dsimp only at hp
  simp only [List.mem_cons, List.mem_nil_iff, or_false] at hp
  rcases hp with rfl | rfl | rfl
  · obtain ⟨a, l, rfl⟩ : ∃ (a : Fin 1) (l : Fin 128000), j = ix2 a l := ⟨j 0, j 1, eq_ix2 j⟩
    have ha := a.isLt
    have ha0 : a = 0 := Fin.ext (by omega)
    subst ha0
    refine (ones_row_apply l).trans (block_apply A B u v _ (4 : Fin 5) l ?_ ?_).symm
    · show 4 + 1 * (0 : Fin 1).val = 4
      rfl
    · show 0 + 1 * l.val = l.val
      omega
  · obtain ⟨k, l, rfl⟩ : ∃ (k : Fin 3) (l : Fin 128000), j = ix2 k l := ⟨j 0, j 1, eq_ix2 j⟩
    have hk := k.isLt
    simp only [View.readAt_eq_ld, h1.read_unread, h2.read_unread, h4.read_unread, View.ld_unit_zero (S := S3x128000) hz,
      View.ld_unit_zero (S := S4x128000) hz, View.ld_unit_zero (S := S3x1) hz]
    refine (direction_rows_apply A B v k l).trans
      ((block_apply A B u v _ ⟨k.val + 1, by omega⟩ l ?_ ?_).trans (entry_succ (L := 128000) A B u v k l)).symm
    · show 1 + 1 * k.val = k.val + 1
      omega
    · show 0 + 1 * l.val = l.val
      omega
  · obtain ⟨a, l, rfl⟩ : ∃ (a : Fin 1) (l : Fin 128000), j = ix2 a l := ⟨j 0, j 1, eq_ix2 j⟩
    have ha := a.isLt
    have ha0 : a = 0 := Fin.ext (by omega)
    subst ha0
    simp only [View.readAt_eq_ld, h2.read_unread, h3.read_unread, View.ld_unit_zero (S := S4x128000) hz,
      View.ld_unit_zero (S := S1x1) hz]
    refine (scalar_row_apply B u l).trans (block_apply A B u v _ (0 : Fin 5) l ?_ ?_).symm
    · show 0 + 1 * (0 : Fin 1).val = 0
      rfl
    · show 0 + 1 * l.val = l.val
      omega

end Cert.KernelIdeal.Block

end
-- ==== Proof.KernelArray.lean ====
/-
  FROM THE BLOCKS TO THE ARRAY.  The grid has 25 steps; step `t` reads columns `128000·t … 128000·t + 127999` of the
  two gathered arrays (whole rows) and the two weight arrays whole, and writes back the same columns of the output array
  [5, 3200000].  Since an entry of the five-row formula depends only on its own column (`EdgeRows.entry_congr`), what
  step `t` writes back is the block at `t` of ONE array: the five-row formula of the whole gathered arrays.  The 25
  blocks tile the output (column `e` is written by step `e / 128000`), so after the region the output array IS that
  array.
-/
import proofs.«109773_j34823594836411_2_alg».proof.Proof.KernelBlock
import Idealize.ShloMosaic.Lib.Pipeline.Value

noncomputable section

open Idealize.ShloMosaic Idealize.ShloMosaic.TcCoe Idealize.SL.Sem
open Idealize.ShloMosaic.ValueIdx
open Idealize.ShloMosaic.Pipeline (Dat)

namespace Cert.KernelIdeal.Array

open Cert.KernelIdeal Cert.KernelIdeal.Gen Cert.EdgeRows

variable (m : (ℓ : Loc nD τ sig) → Buf (Elt Ideal) ℓ) (ρ : Dev nD → PrngReg)

/-- The five-row formula of the gathered arrays and weights as the region finds them: what the output array ends as. -/
def edgeOut (c : Dev nD) : S5x3200000.Idx → EReal := fun i =>
  entry (L := 3200000) (V m c main_v9) (V m c main_v16) (V m c main_v17) (V m c main_v18)
    ⟨(i 0).val, idx2_lt0 i⟩ ⟨(i 1).val, idx2_lt1 i⟩

/-- The printed index maps over the grid: every window's row block is 0; the three edge windows move along the
    columns with the step, the two weight windows stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- WHAT STEP `t` WRITES BACK is block `t` of `edgeOut`. -/
theorem flushed_eq (c : Dev nD) (t : Fin cfg0.N) :
    (dats m 0 c).flushed 4 t = ((cfg0.win 4).blk t).view.read (Elt Ideal) (edgeOut m c) := by
  show (cfg0.win 4).cut (grid0.coords t) ((dats m 0 c).after 4 t) = _
  rw [after0_4]
  unfold outsAt0
  rw [Block.out_block]
  obtain ⟨a0, a1, b0, b1, u0, u1, v0, v1, o0, o1⟩ := idx_facts t
  have ht : t.val < 25 := t.isLt
  funext j
  obtain ⟨r, l, rfl⟩ : ∃ (r : Fin 5) (l : Fin 128000), j = ix2 r l := ⟨j 0, j 1, eq_ix2 j⟩
  have hr := r.isLt
  have hl := l.isLt
  have hE : t.val * 128000 + l.val < 3200000 := by omega
  show Block.block (iblk m c 0 t) (iblk m c 1 t) (iblk m c 2 t) (iblk m c 3 t) (ix2 r l)
    = edgeOut m c (((cfg0.win 4).blk t).view.emb (ix2 r l))
  refine (Block.block_apply _ _ _ _ _ r l rfl rfl).trans ?_
  unfold edgeOut
  have e0 : (⟨((((cfg0.win 4).blk t).view.emb (ix2 r l)) 0).val, idx2_lt0 _⟩ : Fin 5) = r :=
    Fin.ext (by show win0_4.index t (0 : Fin 2) * 5 + 1 * r.val = r.val; omega)
  have e1 : (⟨((((cfg0.win 4).blk t).view.emb (ix2 r l)) 1).val, idx2_lt1 _⟩ : Fin 3200000)
      = ⟨t.val * 128000 + l.val, hE⟩ :=
    Fin.ext (by show win0_4.index t (1 : Fin 2) * 128000 + 1 * l.val = t.val * 128000 + l.val; omega)
  rw [e0, e1]
  have hA : ∀ k : Fin 3, iblk m c 0 t (ix2 k l) = V m c main_v9 (ix2 k ⟨t.val * 128000 + l.val, hE⟩) := fun k => by
    have hk := k.isLt
    show V m c main_v9 (((cfg0.win 0).blk t).view.emb (ix2 k l)) = _
    refine congrArg (V m c main_v9) (funext fun a => Fin.ext ?_)
    match a with
    | ⟨0, _⟩ => show win0_0.index t (0 : Fin 2) * 3 + 1 * k.val = k.val; omega
    | ⟨1, _⟩ => show win0_0.index t (1 : Fin 2) * 128000 + 1 * l.val = t.val * 128000 + l.val; omega
  have hB : ∀ k : Fin 4, iblk m c 1 t (ix2 k l) = V m c main_v16 (ix2 k ⟨t.val * 128000 + l.val, hE⟩) := fun k => by
    have hk := k.isLt
    show V m c main_v16 (((cfg0.win 1).blk t).view.emb (ix2 k l)) = _
    refine congrArg (V m c main_v16) (funext fun a => Fin.ext ?_)
    match a with
    | ⟨0, _⟩ => show win0_1.index t (0 : Fin 2) * 4 + 1 * k.val = k.val; omega
    | ⟨1, _⟩ => show win0_1.index t (1 : Fin 2) * 128000 + 1 * l.val = t.val * 128000 + l.val; omega
  have hu : iblk m c 2 t (ix2 (0 : Fin 1) (0 : Fin 1)) = V m c main_v17 (ix2 (0 : Fin 1) (0 : Fin 1)) := by
    show V m c main_v17 (((cfg0.win 2).blk t).view.emb (ix2 (0 : Fin 1) (0 : Fin 1))) = _
    refine congrArg (V m c main_v17) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  have hv : ∀ k : Fin 3, iblk m c 3 t (ix2 k (0 : Fin 1)) = V m c main_v18 (ix2 k (0 : Fin 1)) := fun k => by
    have hk := k.isLt
    show V m c main_v18 (((cfg0.win 3).blk t).view.emb (ix2 k (0 : Fin 1))) = _
    refine congrArg (V m c main_v18) (funext fun a => Fin.ext ?_)
    match a with
    | ⟨0, _⟩ => show win0_3.index t (0 : Fin 2) * 3 + 1 * k.val = k.val; omega
    | ⟨1, _⟩ => show win0_3.index t (1 : Fin 2) * 1 + 1 * 0 = 0; omega
  exact entry_congr (iblk m c 0 t) (iblk m c 1 t) (V m c main_v9) (V m c main_v16) (iblk m c 2 t) (V m c main_v17)
    (iblk m c 3 t) (V m c main_v18) l ⟨t.val * 128000 + l.val, hE⟩ hA hB hu hv r

/-- An index of the array is in step `t`'s block iff each coordinate is in the block's range on its axis. -/
theorem mem_blk (t : Fin cfg0.N) (i : S5x3200000.Idx) :
    i ∈ ((cfg0.win 4).blk t).view.set ↔ ∀ a : Fin 2, win0_4.index t a * S5x128000.size a ≤ (i a).val
      ∧ (i a).val < win0_4.index t a * S5x128000.size a + S5x128000.size a := by
  show i ∈ ((View.whole main_v19).slice (win0_4.rect t)).set ↔ _
  rw [View.set_slice_whole, Rect.mem_set_unit]
  exact Iff.rfl

/-- Every index of the output array is written back by some step: column `e` by step `e / 128000`. -/
theorem cover (i : S5x3200000.Idx) :
    ∃ t : Fin cfg0.N, (cfg0.win 4).flush t = true ∧ i ∈ ((cfg0.win 4).blk t).view.set := by
  have hi0 : (i 0).val < 5 := (i 0).isLt
  have hi1 : (i 1).val < 3200000 := (i 1).isLt
  have hq : (i 1).val / 128000 < 25 := by omega
  obtain ⟨t, htv⟩ : ∃ t : Fin cfg0.N, t.val = (i 1).val / 128000 := ⟨⟨(i 1).val / 128000, hq⟩, rfl⟩
  obtain ⟨-, -, -, -, -, -, -, -, o0, o1⟩ := idx_facts t
  refine ⟨t, flush0_4 t, ?_⟩
  rw [mem_blk]
  intro a
  match a with
  | ⟨0, _⟩ =>
    show win0_4.index t (0 : Fin 2) * 5 ≤ (i 0).val ∧ (i 0).val < win0_4.index t (0 : Fin 2) * 5 + 5
    omega
  | ⟨1, _⟩ =>
    show win0_4.index t (1 : Fin 2) * 128000 ≤ (i 1).val ∧ (i 1).val < win0_4.index t (1 : Fin 2) * 128000 + 128000
    omega

/-- THE OUTPUT ARRAY after the region: the five-row formula of the gathered arrays. -/
theorem final (c : Dev nD) : (dats m 0 c).arrAt 4 cfg0.N = edgeOut m c :=
  (dats m 0 c).arrAt_eq_of_cover 4 (edgeOut m c) (fun t _ => flushed_eq m c t) cover

end Cert.KernelIdeal.Array

end
-- ==== Proof.LibGatherTable.lean ====
/-
  A TABLE GATHERED BY ONE INDEX PER ENTRY, READ AT AN INDEX.  `x[idx]` of a table `x : [N, C]` at indices
  `idx : [E, 1]` is the array `[E, C]` whose row `e` is the table's row `idx[e, 0]`; the transposed form takes the
  columns of a table `x : [C, N]` into an array `[C, E]`.  In both the index is read as a signed integer and clamped
  into `[0, N − 1]`: a negative index reads row 0, an index past the end reads the last row.  The extents are
  arbitrary naturals and the elements of any type; nothing here depends on a program.
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- The position in a table of `N` entries that an index word names: read as a signed integer, a negative value
    goes to 0 and a value past the end to `N − 1`. -/
def clampIdx {w : Nat} (N : Nat) (hN : 0 < N) (i : BitVec w) : Fin N :=
  ⟨min i.toInt.toNat (N - 1), by omega⟩

/-! ## Rows of `[N, C]` -/

/-- The dimension numbers of a row gather: the index vector (length one, on the indices' axis 1) names operand axis 0,
    which is collapsed; the result's axis 1 is the offset axis and runs along operand axis 1, whole. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` (signed, clamped) and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c) = x (ix2 (clampIdx N hN (idx (ix2 e (0 : Fin 1)))) c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = c.val
    have hst : (rowsDims N C E wf).start (ix2 e c) idx 1 = 0 := by
      unfold GatherDims.start
      rw [dif_neg]
      exact (show (1 : Fin 2) ∉ ([0] : List (Fin 2)) by decide)
    have hoff : (rowsDims N C E wf).offCoord (ix2 e c) 1 = c.val := by
      unfold GatherDims.offCoord
      rw [dif_pos]
      · rfl
      · exact (show (1 : Fin 2) ∈ (List.finRange 2).filter (fun a => a ∉ ([0] : List (Fin 2))) by decide)
    rw [GatherDims.batchCoord_eq_zero _ _ _ List.not_mem_nil, hst, hoff]
    omega

/-! ## Columns of `[C, N]` -/

/-- The dimension numbers of a column gather: the index vector names operand axis 1, which is collapsed; the result's
    axis 0 is the offset axis and runs along operand axis 0, whole. -/
abbrev colsDims (N C E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: the table at the row `c` and the column `idx[e, 0]` (signed, clamped). -/
theorem gather_cols_apply {N C E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (c : Fin C) (e : Fin E) :
    Host.gather (colsDims N C E wf) x idx (ix2 c e) = x (ix2 c (clampIdx N hN (idx (ix2 e (0 : Fin 1))))) := by
  unfold Host.gather
  congr 1
  funext a
  refine Fin.ext ?_
  match a with
  | ⟨0, _⟩ =>
    show (colsDims N C E wf).start (ix2 c e) idx 0 + (colsDims N C E wf).batchCoord (ix2 c e) 0
      + (colsDims N C E wf).offCoord (ix2 c e) 0 = c.val
    have hst : (colsDims N C E wf).start (ix2 c e) idx 0 = 0 := by
      unfold GatherDims.start
      rw [dif_neg]
      exact (show (0 : Fin 2) ∉ ([1] : List (Fin 2)) by decide)
    have hoff : (colsDims N C E wf).offCoord (ix2 c e) 0 = c.val := by
      unfold GatherDims.offCoord
      rw [dif_pos]
      · rfl
      · exact (show (0 : Fin 2) ∈ (List.finRange 2).filter (fun a => a ∉ ([1] : List (Fin 2))) by decide)
    rw [GatherDims.batchCoord_eq_zero _ _ _ List.not_mem_nil, hst, hoff]
    omega
  | ⟨1, _⟩ =>
    show (colsDims N C E wf).start (ix2 c e) idx 1 + (colsDims N C E wf).batchCoord (ix2 c e) 1
      + (colsDims N C E wf).offCoord (ix2 c e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 c e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.GatherTable

end
-- ==== Proof.EdgeSpec.lean ====
/-
  THE SPECIFICATION: what both programs compute, as one function of the six argument arrays, entry by entry, on the
  extended reals.

  There are 100000 nodes and 3200000 edges.  Edge `e` carries two index words, `src e` and `dst e`.  A word names
  the node obtained by adding 100000 once when the word is negative and then clamping into [0, 99999] (`node`).
  With `p` the positions [100000, 3], `f` the scalar features [100000, 1] and weights `w0 : [1]`, `w1 : [3]`:
    `rel e k  = p[node (dst e), k] − p[node (src e), k]`
    `len e    = max (√(Σ_k rel e k · rel e k)) ε`                                  (ε the word 0x2B8CBCCC)
    `msg e 0  = w0[0] · f[node (dst e), 0]`
    `msg e (1 + k) = w1[k] · (f[node (dst e), 0] · rel e k / len e)`
  Node `n` receives the edges whose `dst` word, read as a signed integer with NO wrapping or clamping, is `n`; its
  entry `c` of the result is the sum of their messages over the larger of their number and one:
    `result n c = (0 + Σ_{e → n} msg e c) / max (0 + Σ_{e → n} 1) 1`.
-/
import Idealize.ShloMosaic.PureOps.Ideal
import Idealize.ShloMosaic.Lib.ValueIdx
import proofs.«109773_j34823594836411_2_alg».proof.Proof.LibGatherTable

noncomputable section

open scoped BigOperators

namespace Cert.EdgeSpec

open Idealize.ShloMosaic Idealize.ShloMosaic.ValueIdx Idealize.ShloMosaic.GatherTable

/-- An index word with a negative value moved up once by the number of nodes. -/
def wrap (i : BitVec 32) : BitVec 32 := Scalar.select (IntOp.cmpi .slt i 0#32) (IntOp.addi i 100000#32) i

/-- The node an index word names: wrapped, then clamped. -/
def node (i : BitVec 32) : Fin 100000 := clampIdx 100000 (by decide) (wrap i)

section
variable (p : (⟨2, ![100000, 3]⟩ : Shape).Idx → EReal) (f : (⟨2, ![100000, 1]⟩ : Shape).Idx → EReal)
  (w0 : (⟨1, ![1]⟩ : Shape).Idx → EReal) (w1 : (⟨1, ![3]⟩ : Shape).Idx → EReal)
  (src dst : (⟨1, ![3200000]⟩ : Shape).Idx → BitVec 32)

/-- Component `k` of the relative position along edge `e`: destination minus source. -/
def rel (e : Fin 3200000) (k : Fin 3) : EReal :=
  p (ix2 (node (dst (ix1 e))) k) - p (ix2 (node (src (ix1 e))) k)

/-- The guarded length of the relative position along edge `e`. -/
def len (e : Fin 3200000) : EReal :=
  max (Ideal.sqrt (∑ k : Fin 3, rel p src dst e k * rel p src dst e k)) (Ideal.ofBits .f32 0x2B8CBCCC#32)

/-- The destination's scalar feature. -/
def feat (e : Fin 3200000) : EReal := f (ix2 (node (dst (ix1 e))) (0 : Fin 1))

/-- The scalar channel of edge `e`'s message. -/
def msg0 (e : Fin 3200000) : EReal := w0 (ix1 (0 : Fin 1)) * feat f dst e

/-- The direction channel `k` of edge `e`'s message. -/
def msg1 (e : Fin 3200000) (k : Fin 3) : EReal :=
  w1 (ix1 k) * (feat f dst e * Ideal.div (rel p src dst e k) (len p src dst e))

/-- The edges received by node `n`. -/
def into (n : Fin 100000) : Finset (Fin 3200000) :=
  Finset.univ.filter fun e => (dst (ix1 e)).toInt = (n.val : ℤ)

/-- How many edges node `n` receives, at least one. -/
def count (n : Fin 100000) : EReal :=
  max (Ideal.ofBits .f32 0x00000000#32 + ∑ _e ∈ into dst n, Ideal.ofBits .f32 0x3F800000#32)
    (Ideal.ofBits .f32 0x3F800000#32)

/-- The scalar channel of the result at node `n`. -/
def result0 (n : Fin 100000) : EReal :=
  Ideal.div (Ideal.ofBits .f32 0x00000000#32 + ∑ e ∈ into dst n, msg0 f w0 dst e) (count dst n)

/-- The direction channel `k` of the result at node `n`. -/
def result1 (n : Fin 100000) (k : Fin 3) : EReal :=
  Ideal.div (Ideal.ofBits .f32 0x00000000#32 + ∑ e ∈ into dst n, msg1 p f w1 src dst e k) (count dst n)

/-- THE RESULT ARRAY [100000, 4]: column 0 the scalar channel, columns 1–3 the direction channels. -/
def result (i : (⟨2, ![100000, 4]⟩ : Shape).Idx) : EReal :=
  if h : (i 1).val = 0 then result0 f w0 dst ⟨(i 0).val, idx2_lt0 i⟩
  else result1 p f w1 src dst ⟨(i 0).val, idx2_lt0 i⟩ ⟨(i 1).val - 1, by have := idx2_lt1 i; omega⟩

theorem result_zero (n : Fin 100000) : result p f w0 w1 src dst (ix2 n (0 : Fin 4)) = result0 f w0 dst n := by
  unfold result
  rw [dif_pos]
  all_goals rfl

theorem result_succ (n : Fin 100000) (k : Fin 3) :
    result p f w0 w1 src dst (ix2 n (Fin.succ k)) = result1 p f w1 src dst n k := by
  unfold result
  rw [dif_neg]
  all_goals first | rfl | (show ¬ (k.val + 1 = 0); omega)

end

end Cert.EdgeSpec

end
-- ==== Proof.KernelHost.lean ====
/-
  THE ARRAYS THE REGION FINDS, read at an index, and with them the rows of the kernel's output array as the
  specification's messages.

  Before the region the host transposes the positions to [3, 100000] and the scalar features to [1, 100000], stacks
  them into one table [4, 100000], and gathers columns: of the transposed positions by the wrapped `src` words (the
  array [3, 3200000] the region's first window reads) and of the stacked table by the wrapped `dst` words (the array
  [4, 3200000] of its second window).  A gathered column is the table's column at the node the word names (wrapped,
  then clamped); a transposed entry is the original's with its coordinates swapped; rows 0–2 of the stacked table are
  the positions' and row 3 the features'.  The weights are reshaped to columns.  So column `e` of the first array is
  the position of `node (src e)`, rows 0–2 of column `e` of the second the position of `node (dst e)`, its row 3
  that node's feature — exactly what the specification's messages are made of.
-/
import proofs.«109773_j34823594836411_2_alg».proof.Proof.KernelArray
import proofs.«109773_j34823594836411_2_alg».proof.Proof.EdgeSpec
import proofs.«109773_j34823594836411_2_alg».proof.Proof.LibGatherTable
import proofs.«109773_j34823594836411_2_alg».proof.Proof.LibKeepdims
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.ValueIdx Idealize.ShloMosaic.GatherTable
open Idealize.ShloMosaic.Pipeline (Dat)

namespace Cert.KernelIdeal.Host

open Cert.KernelIdeal Cert.KernelIdeal.Gen Cert.EdgeRows Cert.EdgeSpec

variable (m : (ℓ : Loc nD τ sig) → Buf (Elt Ideal) ℓ)

/-! ## The argument arrays -/

/-- The positions [100000, 3]. -/
abbrev pos (c : Dev nD) : S100000x3.Idx → EReal := m ((c : Thread nD τ).loc main_arg0)
/-- The scalar features [100000, 1]. -/
abbrev ft (c : Dev nD) : S100000x1.Idx → EReal := m ((c : Thread nD τ).loc main_arg1)
/-- The scalar channel's weight [1]. -/
abbrev wt0 (c : Dev nD) : S1.Idx → EReal := m ((c : Thread nD τ).loc main_arg2)
/-- The direction channels' weights [3]. -/
abbrev wt1 (c : Dev nD) : S3.Idx → EReal := m ((c : Thread nD τ).loc main_arg3)
/-- The source words [3200000]. -/
abbrev srcw (c : Dev nD) : S3200000.Idx → BitVec 32 := m ((c : Thread nD τ).loc main_arg4)
/-- The destination words [3200000]. -/
abbrev dstw (c : Dev nD) : S3200000.Idx → BitVec 32 := m ((c : Thread nD τ).loc main_arg5)

/-! ## Layout steps read at an index -/

/-- The wrapped words as a column of start indices, read at `(e, 0)`. -/
theorem wrapped_apply (x : S3200000.Idx → BitVec 32) (e : Fin 3200000) :
    broadcastInDim S3200000x1 ![0] bcast_S3200000_S3200000x1_0
      (select (cmpi .slt x (broadcastInDim S3200000 ![] bcast_S_S3200000 (constantI S_ 32 0#32)))
        (addi x (broadcastInDim S3200000 ![] bcast_S_S3200000 (constantI S_ 32 100000#32))) x) (ix2 e (0 : Fin 1))
      = wrap (x (ix1 e)) :=
  (broadcastInDim_apply _ bcast_S3200000_S3200000x1_0 _ (ix2 e (0 : Fin 1)) (ix1 e) (fun a => match a with
    | ⟨0, _⟩ => by show e.val = if (3200000 : Nat) = 1 then 0 else e.val; rw [if_neg (by decide)])).trans rfl

/-- A column gathered from a three-row table. -/
theorem gather3_apply (T : S3x100000.Idx → EReal) (idx : IVec S3200000x1 32) (k : Fin 3) (e : Fin 3200000) :
    Host.gather gather_S3x100000_S3200000x1_S3x3200000_0_1_n_n_1_1_31 T idx (ix2 k e)
      = T (ix2 k (clampIdx 100000 (by decide) (idx (ix2 e (0 : Fin 1))))) :=
  gather_cols_apply (N := 100000) (C := 3) (E := 3200000) (by decide)
    gather_S3x100000_S3200000x1_S3x3200000_0_1_n_n_1_1_31_wf T idx k e

/-- A column gathered from a four-row table. -/
theorem gather4_apply (T : S4x100000.Idx → EReal) (idx : IVec S3200000x1 32) (k : Fin 4) (e : Fin 3200000) :
    Host.gather gather_S4x100000_S3200000x1_S4x3200000_0_1_n_n_1_1_41 T idx (ix2 k e)
      = T (ix2 k (clampIdx 100000 (by decide) (idx (ix2 e (0 : Fin 1))))) :=
  gather_cols_apply (N := 100000) (C := 4) (E := 3200000) (by decide)
    gather_S4x100000_S3200000x1_S4x3200000_0_1_n_n_1_1_41_wf T idx k e

/-- Rows 0–2 of the stacked table are the transposed positions. -/
theorem stacked_pos_apply (P : S3x100000.Idx → EReal) (Q : S1x100000.Idx → EReal) (k : Fin 3) (n : Fin 100000) :
    concatenate S4x100000 0 [⟨S3x100000, P⟩, ⟨S1x100000, Q⟩] concatenates_S3x100000_S1x100000_S4x100000_d0
      (ix2 (Fin.castSucc k) n) = P (ix2 k n) :=
  concatenate_pair_apply_left 0 P Q concatenates_S3x100000_S1x100000_S4x100000_d0 (ix2 (Fin.castSucc k) n) rfl (ix2 k n)
    (fun b => match b with | ⟨0, _⟩ => rfl | ⟨1, _⟩ => rfl)

/-- Row 3 of the stacked table is the transposed features. -/
theorem stacked_feat_apply (P : S3x100000.Idx → EReal) (Q : S1x100000.Idx → EReal) (n : Fin 100000) :
    concatenate S4x100000 0 [⟨S3x100000, P⟩, ⟨S1x100000, Q⟩] concatenates_S3x100000_S1x100000_S4x100000_d0
      (ix2 (3 : Fin 4) n) = Q (ix2 (0 : Fin 1) n) :=
  concatenate_pair_apply_right 0 P Q concatenates_S3x100000_S1x100000_S4x100000_d0 (ix2 (3 : Fin 4) n) rfl rfl
    (ix2 (0 : Fin 1) n)
    (fun b => match b with
      | ⟨0, _⟩ => fun h => absurd rfl h
      | ⟨1, _⟩ => fun _ => rfl)
    rfl

/-! ## The four arrays the region's input windows read -/

/-- The first window's array: column `e` is the position of the node `src e` names. -/
theorem srcPos_apply (c : Dev nD) (k : Fin 3) (e : Fin 3200000) :
    (V m c main_v9 : S3x3200000.Idx → EReal) (ix2 k e) = pos m c (ix2 (node (srcw m c (ix1 e))) k) := by
  have hV : (V m c main_v9 : S3x3200000.Idx → EReal)
      = Host.gather gather_S3x100000_S3200000x1_S3x3200000_0_1_n_n_1_1_31
          (transpose S3x100000 [1, 0] (pos m c) transposes_S100000x3_S3x100000_1_0)
          (broadcastInDim S3200000x1 ![0] bcast_S3200000_S3200000x1_0
            (select (cmpi .slt (srcw m c) (broadcastInDim S3200000 ![] bcast_S_S3200000 (constantI S_ 32 0#32)))
              (addi (srcw m c) (broadcastInDim S3200000 ![] bcast_S_S3200000 (constantI S_ 32 100000#32)))
              (srcw m c))) := by
    show StableHlo.after hostOps0 (fun b => m (c, b)) (Proc.devRef .tc main_v9) = _
    after_results
  rw [hV, gather3_apply, wrapped_apply]
  exact transpose_ix2_apply (pos m c) transposes_S100000x3_S3x100000_1_0 k (node (srcw m c (ix1 e)))

/-- The stacked table gathered by the wrapped `dst` words. -/
theorem dstTable (c : Dev nD) :
    (V m c main_v16 : S4x3200000.Idx → EReal)
      = Host.gather gather_S4x100000_S3200000x1_S4x3200000_0_1_n_n_1_1_41
          (concatenate S4x100000 0 [⟨S3x100000, transpose S3x100000 [1, 0] (pos m c) transposes_S100000x3_S3x100000_1_0⟩,
            ⟨S1x100000, transpose S1x100000 [1, 0] (ft m c) transposes_S100000x1_S1x100000_1_0⟩]
            concatenates_S3x100000_S1x100000_S4x100000_d0)
          (broadcastInDim S3200000x1 ![0] bcast_S3200000_S3200000x1_0
            (select (cmpi .slt (dstw m c) (broadcastInDim S3200000 ![] bcast_S_S3200000 (constantI S_ 32 0#32)))
              (addi (dstw m c) (broadcastInDim S3200000 ![] bcast_S_S3200000 (constantI S_ 32 100000#32)))
              (dstw m c))) := by
  show StableHlo.after hostOps0 (fun b => m (c, b)) (Proc.devRef .tc main_v16) = _
  after_results

/-- The second window's array, rows 0–2: column `e` is the position of the node `dst e` names. -/
theorem dstPos_apply (c : Dev nD) (k : Fin 3) (e : Fin 3200000) :
    (V m c main_v16 : S4x3200000.Idx → EReal) (ix2 (Fin.castSucc k) e) = pos m c (ix2 (node (dstw m c (ix1 e))) k) := by
  rw [dstTable, gather4_apply, wrapped_apply, stacked_pos_apply]
  exact transpose_ix2_apply (pos m c) transposes_S100000x3_S3x100000_1_0 k (node (dstw m c (ix1 e)))

/-- The second window's array, row 3: that node's scalar feature. -/
theorem dstFeat_apply (c : Dev nD) (e : Fin 3200000) :
    (V m c main_v16 : S4x3200000.Idx → EReal) (ix2 (3 : Fin 4) e)
      = ft m c (ix2 (node (dstw m c (ix1 e))) (0 : Fin 1)) := by
  rw [dstTable, gather4_apply, wrapped_apply, stacked_feat_apply]
  exact transpose_ix2_apply (ft m c) transposes_S100000x1_S1x100000_1_0 (0 : Fin 1) (node (dstw m c (ix1 e)))

/-- The third window's array: the scalar weight as a [1, 1] array. -/
theorem weight0_apply (c : Dev nD) :
    (V m c main_v17 : S1x1.Idx → EReal) (ix2 (0 : Fin 1) (0 : Fin 1)) = wt0 m c (ix1 (0 : Fin 1)) := by
  have hV : (V m c main_v17 : S1x1.Idx → EReal) = shapeCast S1x1 (wt0 m c) shapeCasts_S1_S1x1 := by
    show StableHlo.after hostOps0 (fun b => m (c, b)) (Proc.devRef .tc main_v17) = _
    after_results
    rfl
  rw [hV]
  exact Cert.LibKeepdims.shapeCast_col_apply (wt0 m c) shapeCasts_S1_S1x1 (0 : Fin 1)

/-- The fourth window's array: the direction weights as a column. -/
theorem weight1_apply (c : Dev nD) (k : Fin 3) :
    (V m c main_v18 : S3x1.Idx → EReal) (ix2 k (0 : Fin 1)) = wt1 m c (ix1 k) := by
  have hV : (V m c main_v18 : S3x1.Idx → EReal) = shapeCast S3x1 (wt1 m c) shapeCasts_S3_S3x1 := by
    show StableHlo.after hostOps0 (fun b => m (c, b)) (Proc.devRef .tc main_v18) = _
    after_results
    rfl
  rw [hV]
  exact Cert.LibKeepdims.shapeCast_col_apply (wt1 m c) shapeCasts_S3_S3x1 k

/-! ## The rows of the output array are the specification's messages -/

/-- A direction entry of the five-row formula is the specification's direction message, for ANY gathered arrays whose
    column `e` holds the two nodes' positions and the destination's feature, and any weights column holding `w1`. -/
theorem dirEntry_eq_msg1 (A : S3x3200000.Idx → EReal) (B : S4x3200000.Idx → EReal) (v : S3x1.Idx → EReal)
    (p : S100000x3.Idx → EReal) (f : S100000x1.Idx → EReal) (w1 : S3.Idx → EReal) (src dst : S3200000.Idx → BitVec 32)
    (e : Fin 3200000)
    (hA : ∀ j : Fin 3, A (ix2 j e) = p (ix2 (node (src (ix1 e))) j))
    (hB : ∀ j : Fin 3, B (ix2 (Fin.castSucc j) e) = p (ix2 (node (dst (ix1 e))) j))
    (hF : B (ix2 (3 : Fin 4) e) = f (ix2 (node (dst (ix1 e))) (0 : Fin 1)))
    (hv : ∀ j : Fin 3, v (ix2 j (0 : Fin 1)) = w1 (ix1 j)) (k : Fin 3) :
    dirEntry (L := 3200000) A B v k e = msg1 p f w1 src dst e k := by
  unfold dirEntry safeLen diff msg1 len rel feat
  simp only [hA, hB, hF, hv]

/-- Row 0: the scalar channel. -/
theorem edgeOut_scalar (c : Dev nD) (e : Fin 3200000) :
    Array.edgeOut m c (ix2 (0 : Fin 5) e) = msg0 (ft m c) (wt0 m c) (dstw m c) e := by
  show entry (L := 3200000) (V m c main_v9) (V m c main_v16) (V m c main_v17) (V m c main_v18) 0 e = _
  rw [entry_zero, weight0_apply, dstFeat_apply]
  rfl

/-- Rows 1–3: the direction channels. -/
theorem edgeOut_dir (c : Dev nD) (k : Fin 3) (e : Fin 3200000) :
    Array.edgeOut m c (ix2 (⟨k.val + 1, by omega⟩ : Fin 5) e)
      = msg1 (pos m c) (ft m c) (wt1 m c) (srcw m c) (dstw m c) e k := by
  show entry (L := 3200000) (V m c main_v9) (V m c main_v16) (V m c main_v17) (V m c main_v18) ⟨k.val + 1, by omega⟩ e = _
  rw [entry_succ]
  exact dirEntry_eq_msg1 (V m c main_v9) (V m c main_v16) (V m c main_v18) (pos m c) (ft m c) (wt1 m c) (srcw m c)
    (dstw m c) e (fun j => srcPos_apply m c j e) (fun j => dstPos_apply m c j e) (dstFeat_apply m c e)
    (fun j => weight1_apply m c j) k

/-- Row 4: one for every edge. -/
theorem edgeOut_ones (c : Dev nD) (e : Fin 3200000) :
    Array.edgeOut m c (ix2 (4 : Fin 5) e) = Ideal.ofBits .f32 0x3F800000#32 := rfl

end Cert.KernelIdeal.Host

end
-- ==== Proof.LibScatterRows.lean ====
/-
  A ROW SCATTER-ADD READ AT AN INDEX.  What `x.at[idx].add(u)` of a table `x : [N, C]`, one row index per update row
  `idx : [E, 1]` and update rows `u : [E, C]` means on the extended reals: element `(n, c)` of the result is
  `x[n, c]` plus the sum of `u[e, c]` over the update rows `e` whose row index, read as a signed integer, is `n`.
  An update row whose index is negative or at least `N` lands nowhere and is dropped.  The extents are arbitrary
  naturals; nothing here depends on a program.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the index vector (of length one, on the indices' axis 1) names operand
    axis 0, which is inserted; the updates' axis 1 is the window axis and runs along operand axis 1. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element `(e, c)` reads its row index: `(e, 0)`. -/
abbrev rowIdx {E C : Nat} (j : (⟨2, ![E, C]⟩ : Shape).Idx) : (⟨2, ![E, 1]⟩ : Shape).Idx :=
  ix2 (⟨(j 0).val, idx2_lt0 j⟩ : Fin E) (0 : Fin 1)

section
variable {N C E w : Nat} (wf : ScatterDims.WF ⟨2, ![N, C]⟩ ⟨2, ![E, 1]⟩ ⟨2, ![E, C]⟩ [1] [0] [0] 1)

/-- On the row axis the window starts at the row index, read signed. -/
theorem start_row (j : (⟨2, ![E, C]⟩ : Shape).Idx) (idx : IVec ⟨2, ![E, 1]⟩ w) :
    (rowDims N C E wf).start j idx 0 = (idx (rowIdx j)).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the column axis it starts at zero. -/
theorem start_col (j : (⟨2, ![E, C]⟩ : Shape).Idx) (idx : IVec ⟨2, ![E, 1]⟩ w) :
    (rowDims N C E wf).start j idx 1 = 0 := by
  unfold ScatterDims.start
  rw [dif_neg (show (1 : Fin 2) ∉ ([0] : List (Fin 2)) by decide)]

/-- The window has no extent along the rows … -/
theorem window_row (j : (⟨2, ![E, C]⟩ : Shape).Idx) : (rowDims N C E wf).window j 0 = 0 := by
  unfold ScatterDims.window
  rw [dif_neg]
  exact (show (0 : Fin 2) ∉ (List.finRange 2).filter (fun a => a ∉ ([0] : List (Fin 2))) by decide)

/-- … and along the columns it is the update's column. -/
theorem window_col (j : (⟨2, ![E, C]⟩ : Shape).Idx) : (rowDims N C E wf).window j 1 = (j 1).val := by
  unfold ScatterDims.window
  rw [dif_pos]
  · rfl
  · exact (show (1 : Fin 2) ∈ (List.finRange 2).filter (fun a => a ∉ ([0] : List (Fin 2))) by decide)

/-- An update element lands on operand element `i` exactly when its row index, read signed, is `i`'s row and its
    column is `i`'s column. -/
theorem resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (rowIdx j)).toInt = ((i 0).val : ℤ) ∧ (j 1).val = (i 1).val := by
  have hi0 : (i 0).val < N := idx2_lt0 i
  have hi1 : (i 1).val < C := idx2_lt1 i
  constructor
  · intro hsome
    unfold ScatterDims.resultIdx? at hsome
    split at hsome
    · rename_i h
      have e := Option.some.inj hsome
      have e0 := congrArg Fin.val (congrFun e 0)
      have e1 := congrArg Fin.val (congrFun e 1)
      have h0 := h 0
      have h1 := h 1
      simp only [start_row, start_col, window_row, window_col] at e0 e1 h0 h1
      constructor <;> omega
    · exact absurd hsome (by simp)
  · rintro ⟨e0, e1⟩
    have h : ∀ a, 0 ≤ (rowDims N C E wf).start j idx a + (rowDims N C E wf).window j a ∧
        (rowDims N C E wf).start j idx a + (rowDims N C E wf).window j a < (⟨2, ![N, C]⟩ : Shape).size a := by
      intro a
      match a with
      | ⟨0, _⟩ =>
        show 0 ≤ (rowDims N C E wf).start j idx 0 + (rowDims N C E wf).window j 0 ∧
          (rowDims N C E wf).start j idx 0 + (rowDims N C E wf).window j 0 < (N : ℤ)
        rw [start_row, window_row]; omega
      | ⟨1, _⟩ =>
        show 0 ≤ (rowDims N C E wf).start j idx 1 + (rowDims N C E wf).window j 1 ∧
          (rowDims N C E wf).start j idx 1 + (rowDims N C E wf).window j 1 < (C : ℤ)
        rw [start_col, window_col]; omega
    unfold ScatterDims.resultIdx?
    rw [dif_pos h]
    congr 1
    funext a
    refine Fin.ext ?_
    match a with
    | ⟨0, _⟩ =>
      show ((rowDims N C E wf).start j idx 0 + (rowDims N C E wf).window j 0).toNat = (i 0).val
      rw [start_row, window_row]; omega
    | ⟨1, _⟩ =>
      show ((rowDims N C E wf).start j idx 1 + (rowDims N C E wf).window j 1).toNat = (i 1).val
      rw [start_col, window_col]; omega

/-- THE ROW SCATTER-ADD READ AT `(n, c)`, on the extended reals: the operand's element plus the sum, over the update
    rows `e` whose row index read signed is `n`, of the update's element `(e, c)`.  The update elements that land on
    `(n, c)` are exactly the `(e, c)` with such an `e`, one for each. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c) =
      x (ix2 n c) + ∑ e ∈ Finset.univ.filter (fun e : Fin E => (idx (ix2 e (0 : Fin 1))).toInt = (n.val : ℤ)),
        upd (ix2 e c) := by
  show Ideal.hostScatterAdd (rowDims N C E wf) x idx upd (ix2 n c) = _
  unfold Ideal.hostScatterAdd
  refine congrArg (x (ix2 n c) + ·) ?_
  have key : ∀ j : (⟨2, ![E, C]⟩ : Shape).Idx, (rowDims N C E wf).resultIdx? j idx = some (ix2 n c) ↔
      (idx (rowIdx j)).toInt = (n.val : ℤ) ∧ (j 1).val = c.val :=
    fun j => resultIdx?_eq_some_iff wf j idx (ix2 n c)
  have back : ∀ j : (⟨2, ![E, C]⟩ : Shape).Idx, (j 1).val = c.val →
      ix2 (⟨(j 0).val, idx2_lt0 j⟩ : Fin E) c = j := by
    intro j hj
    have hc : j 1 = c := Fin.ext hj
    rw [← hc]
    exact (eq_ix2 j).symm
  refine Finset.sum_bij' (fun j _ => (⟨(j 0).val, idx2_lt0 j⟩ : Fin E)) (fun e _ => ix2 e c) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (key (ix2 e c)).mpr ⟨he.2, rfl⟩⟩
  · intro j hj
    rw [Finset.mem_filter] at hj
    exact back j ((key j).mp hj.2).2
  · intro e _
    rfl
  · intro j hj
    rw [Finset.mem_filter] at hj
    exact congrArg upd (back j ((key j).mp hj.2).2).symm

end

end Idealize.ShloMosaic.ScatterRows

end
-- ==== Proof.KernelTail.lean ====
/-
  AFTER THE REGION.  The host transposes the output array to [3200000, 5], scatter-adds its rows by the raw `dst`
  words into zeros [100000, 5], and divides the first four columns by the larger of the fifth and one.  Entry
  `(n, c)` of the scatter-add is `0 + Σ` over the edges received by node `n` of the output array's entry `(c, e)`;
  rows 0–3 of the output array are the specification's messages and row 4 is ones, so columns 0–3 are the sums of the
  messages and column 4 the number of edges received: the quotient is the specification's result.
-/
import proofs.«109773_j34823594836411_2_alg».proof.Proof.KernelHost
import proofs.«109773_j34823594836411_2_alg».proof.Proof.LibScatterRows
import Idealize.ShloMosaic.Lib.Pipeline.Value
import Idealize.ShloMosaic.Lib.ValueLayout
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.ValueIdx Idealize.ShloMosaic.ScatterRows
open Idealize.ShloMosaic.Pipeline (Dat)

namespace Cert.KernelIdeal.Tail

open Cert.KernelIdeal Cert.KernelIdeal.Gen Cert.EdgeSpec

/-- The rows of the transposed output array added up per destination word, over zeros [100000, 5]. -/
def sums (O : FVec Ideal S5x3200000 .f32) (d : IVec S3200000 32) : FVec Ideal S100000x5 .f32 :=
  Host.scatterAdd (F := Ideal) scatter_S100000x5_S3200000x1_S3200000x5_1_0_0_1
    (broadcastInDim S100000x5 ![] bcast_S_S100000x5 (constant (F := Ideal) S_ .f32 0x00000000#32))
    (broadcastInDim S3200000x1 ![0] bcast_S3200000_S3200000x1_0 d)
    (transpose S3200000x5 [1, 0] O transposes_S5x3200000_S3200000x5_1_0)

/-- The host's steps after the region, as one function of the region's output array and the `dst` words. -/
def tail (O : FVec Ideal S5x3200000 .f32) (d : IVec S3200000 32) : FVec Ideal S100000x4 .f32 :=
  Host.divf (F := Ideal)
    (extractStridedSlice S100000x4 ![0, 0] (sums O d) slices_S100000x5_S100000x4_0_0)
    (broadcastInDim S100000x4 ![0, 1] bcast_S100000x1_S100000x4_0_1
      (maximumf (extractStridedSlice S100000x1 ![0, 4] (sums O d) slices_S100000x5_S100000x1_0_4)
        (broadcastInDim S100000x1 ![] bcast_S_S100000x1 (constant (F := Ideal) S_ .f32 0x3F800000#32))))

/-! ## The run -/

section
variable (m : (ℓ : Loc nD τ sig) → Buf (Elt Ideal) ℓ)

/-- What the result buffer holds after the host's last steps: `tail` of the region's output array and the `dst` words. -/
theorem after_tail (c : Dev nD) :
    (Pipeline.afterTail₀ cfgs (dats m) 0 (V0 m) [hostOps1] c main_v29 : S100000x4.Idx → EReal)
      = tail (Array.edgeOut m c) (Host.dstw m c) := by
  have hO : Pipeline.withArrays (cfgs 0).spec c (V0 m c) (fun w => (dats m 0 c).arrAt w (cfgs 0).N)
      (Proc.devRef .tc main_v19) = Array.edgeOut m c :=
    (Pipeline.withArrays_arr spec0 launch0.win.arr_inj c _ _ 4).trans (Array.final m c)
  have h5 : Pipeline.withArrays (cfgs 0).spec c (V0 m c) (fun w => (dats m 0 c).arrAt w (cfgs 0).N)
      (Proc.devRef .tc main_arg5) = Host.dstw m c :=
    (Pipeline.withArrays_of_ne _ c (V0 m c) _ main_arg5
      (by exact (by decide : ∀ w, Pipeline.arrRef spec0 w ≠ main_arg5))).trans (V_main_arg5 m c)
  unfold Pipeline.afterTail₀
  show StableHlo.after hostOps1 _ (Proc.devRef .tc main_v29) = _
  after_results
  rw [hO, h5]
  rfl

end

/-! ## The tail read at an index -/

/-- The raw words as a column of scatter indices, read at `(e, 0)`. -/
theorem rawCol_apply (d : IVec S3200000 32) (e : Fin 3200000) :
    broadcastInDim S3200000x1 ![0] bcast_S3200000_S3200000x1_0 d (ix2 e (0 : Fin 1)) = d (ix1 e) :=
  broadcastInDim_apply _ bcast_S3200000_S3200000x1_0 d (ix2 e (0 : Fin 1)) (ix1 e) (fun a => match a with
    | ⟨0, _⟩ => by show e.val = if (3200000 : Nat) = 1 then 0 else e.val; rw [if_neg (by decide)])

/-- The five-column scatter-add at `(n, c)`. -/
theorem scatter5_apply (x : FVec Ideal S100000x5 .f32) (idx : IVec S3200000x1 32) (u : FVec Ideal S3200000x5 .f32)
    (n : Fin 100000) (c : Fin 5) :
    Host.scatterAdd scatter_S100000x5_S3200000x1_S3200000x5_1_0_0_1 x idx u (ix2 n c)
      = x (ix2 n c) + ∑ e ∈ Finset.univ.filter (fun e : Fin 3200000 => (idx (ix2 e (0 : Fin 1))).toInt = (n.val : ℤ)),
          u (ix2 e c) :=
  scatterAdd_rows_apply (N := 100000) (C := 5) (E := 3200000) scatter_S100000x5_S3200000x1_S3200000x5_1_0_0_1_wf x idx u n c

/-- Column `c` at node `n`: zero plus the output array's row `c` summed over the edges the node receives. -/
theorem sums_apply (O : FVec Ideal S5x3200000 .f32) (d : IVec S3200000 32) (n : Fin 100000) (c : Fin 5) :
    sums O d (ix2 n c) = Ideal.ofBits .f32 0x00000000#32 + ∑ e ∈ into d n, O (ix2 c e) := by
  unfold sums
  rw [scatter5_apply]
  unfold into
  refine congrArg₂ (· + ·) rfl (Finset.sum_congr (Finset.filter_congr fun e _ => by rw [rawCol_apply]) fun e _ => ?_)
  exact transpose_ix2_apply O transposes_S5x3200000_S3200000x5_1_0 e c

/-- The host's quotient entry by entry. -/
theorem hostDivf_apply {s : Shape} (a b : FVec Ideal s .f32) (i : s.Idx) : Host.divf a b i = Ideal.div (a i) (b i) := rfl

/-- The column of ones the counts are compared with. -/
theorem onesCol_apply (i : S100000x1.Idx) :
    broadcastInDim S100000x1 ![] bcast_S_S100000x1 (constant (F := Ideal) S_ .f32 0x3F800000#32) i
      = Ideal.ofBits .f32 0x3F800000#32 := rfl

/-- A column [100000, 1] spread over the four result columns. -/
theorem spreadCol_apply (x : FVec Ideal S100000x1 .f32) (n : Fin 100000) (c : Fin 4) :
    broadcastInDim S100000x4 ![0, 1] bcast_S100000x1_S100000x4_0_1 x (ix2 n c) = x (ix2 n (0 : Fin 1)) :=
  broadcastInDim_apply _ bcast_S100000x1_S100000x4_0_1 x (ix2 n c) (ix2 n (0 : Fin 1)) (fun a => match a with
    | ⟨0, _⟩ => by show n.val = if (100000 : Nat) = 1 then 0 else n.val; rw [if_neg (by decide)]
    | ⟨1, _⟩ => by show (0 : Nat) = if (1 : Nat) = 1 then 0 else c.val; rw [if_pos rfl])

/-- The quotient at `(n, c)`, `c'` the same column of the five. -/
theorem tail_apply (O : FVec Ideal S5x3200000 .f32) (d : IVec S3200000 32) (n : Fin 100000) (c : Fin 4) (c' : Fin 5)
    (hc : c'.val = c.val) :
    tail O d (ix2 n c) = Ideal.div (sums O d (ix2 n c'))
      (max (sums O d (ix2 n (4 : Fin 5))) (Ideal.ofBits .f32 0x3F800000#32)) := by
  unfold tail
  rw [hostDivf_apply, spreadCol_apply, maximumf_apply, onesCol_apply,
    slice2_axis1_apply 0 (sums O d) slices_S100000x5_S100000x4_0_0 n c c' (by omega),
    slice2_axis1_apply 4 (sums O d) slices_S100000x5_S100000x1_0_4 n (0 : Fin 1) (4 : Fin 5) rfl]

/-! ## The kernel's result is the specification's -/

section
variable (m : (ℓ : Loc nD τ sig) → Buf (Elt Ideal) ℓ)

/-- The number of edges a node receives, at least one, from the row of ones. -/
theorem count_eq (c : Dev nD) (n : Fin 100000) :
    max (sums (Array.edgeOut m c) (Host.dstw m c) (ix2 n (4 : Fin 5))) (Ideal.ofBits .f32 0x3F800000#32)
      = EdgeSpec.count (Host.dstw m c) n := by
  rw [sums_apply]
  unfold EdgeSpec.count
  have h : ∀ e ∈ into (Host.dstw m c) n,
      Array.edgeOut m c (ix2 (4 : Fin 5) e) = Ideal.ofBits .f32 0x3F800000#32 := fun e _ => Host.edgeOut_ones m c e
  rw [Finset.sum_congr rfl h]

/-- THE KERNEL'S RESULT is the specification's. -/
theorem result_eq (c : Dev nD) :
    tail (Array.edgeOut m c) (Host.dstw m c)
      = result (Host.pos m c) (Host.ft m c) (Host.wt0 m c) (Host.wt1 m c) (Host.srcw m c) (Host.dstw m c) := by
  funext i
  obtain ⟨n, k, rfl⟩ : ∃ (n : Fin 100000) (k : Fin 4), i = ix2 n k := ⟨i 0, i 1, eq_ix2 i⟩
  refine Fin.cases ?_ (fun j => ?_) k
  · rw [tail_apply _ _ n (0 : Fin 4) (0 : Fin 5) rfl, count_eq, sums_apply, result_zero]
    unfold result0
    have h : ∀ e ∈ into (Host.dstw m c) n, Array.edgeOut m c (ix2 (0 : Fin 5) e)
        = msg0 (Host.ft m c) (Host.wt0 m c) (Host.dstw m c) e := fun e _ => Host.edgeOut_scalar m c e
    rw [Finset.sum_congr rfl h]
  · rw [tail_apply _ _ n (Fin.succ j) (⟨j.val + 1, by omega⟩ : Fin 5) rfl, count_eq, sums_apply, result_succ]
    unfold result1
    have h : ∀ e ∈ into (Host.dstw m c) n, Array.edgeOut m c (ix2 (⟨j.val + 1, by omega⟩ : Fin 5) e)
        = msg1 (Host.pos m c) (Host.ft m c) (Host.wt1 m c) (Host.srcw m c) (Host.dstw m c) e j :=
      fun e _ => Host.edgeOut_dir m c j e
    rw [Finset.sum_congr rfl h]

end

end Cert.KernelIdeal.Tail

end
-- ==== Proof.KernelRun.lean ====
/-
  THE KERNEL PROGRAM'S RUN, read: every weakly fair execution of the idealized kernel program terminates with the
  result buffer holding the specification's result of the argument arrays, and the argument arrays unchanged.  The
  generated frame run gives termination and, for every buffer the region does not stage, what the host's last steps
  leave in it; for the result buffer that is the tail of the region's output array (KernelTail.lean), which is the
  specification's result; an argument array is written by no step.
-/
import proofs.«109773_j34823594836411_2_alg».proof.Proof.KernelTail

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.EdgeSpec

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v29)
        = result (Host.pos m c) (Host.ft m c) (Host.wt0 m c) (Host.wt1 m c) (Host.srcw m c) (Host.dstw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v29 (Pipeline.mem_restRefs_of main_v29 (by decide) (by decide))).trans (Tail.after_tail m c)).trans
        (Tail.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.RefSpec.lean ====
/-
  THE REFERENCE COMPUTES THE SPECIFICATION.  The reference gathers rows of the positions by the wrapped `dst` and
  `src` words and rows of the features by the wrapped `dst` words, forms per edge the relative position, its guarded
  length, the scalar message and the three direction messages, joins them into an array [3200000, 4], scatter-adds its
  rows by the raw `dst` words into zeros [100000, 4], scatter-adds a column of ones the same way into zeros
  [100000, 1], and divides the first by the larger of the second and one.  Read one stage at a time at an index,
  every stage is the specification's term of the same name.
-/
import proofs.«109773_j34823594836411_2_alg».proof.Proof.Gen.ReferenceIdeal.Read
import proofs.«109773_j34823594836411_2_alg».proof.Proof.EdgeSpec
import proofs.«109773_j34823594836411_2_alg».proof.Proof.LibGatherTable
import proofs.«109773_j34823594836411_2_alg».proof.Proof.LibScatterRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefSpec

open Cert.ReferenceIdeal Cert.ReferenceIdeal.Gen Cert.ReferenceIdeal.Read Cert.EdgeSpec
open Idealize.ShloMosaic Idealize.ShloMosaic.ValueIdx Idealize.ShloMosaic.GatherTable Idealize.ShloMosaic.ScatterRows

/-! ## Where each layout stage reads -/

theorem idx5 (e : Fin 3200000) : idx_main_v5 (ix2 e (0 : Fin 1)) = ix1 e :=
  funext fun a => Fin.ext (by match a with | ⟨0, _⟩ => rfl)
theorem idx12 (e : Fin 3200000) : idx_main_v12 (ix2 e (0 : Fin 1)) = ix1 e :=
  funext fun a => Fin.ext (by match a with | ⟨0, _⟩ => rfl)
theorem idx28 (e : Fin 3200000) : idx_main_v28 (ix2 e (0 : Fin 1)) = ix1 e :=
  funext fun a => Fin.ext (by match a with | ⟨0, _⟩ => rfl)
theorem idx40 (e : Fin 3200000) : idx_main_v40 (ix2 e (0 : Fin 1)) = ix1 e :=
  funext fun a => Fin.ext (by match a with | ⟨0, _⟩ => rfl)
theorem idx44 (e : Fin 3200000) : idx_main_v44 (ix2 e (0 : Fin 1)) = ix1 e :=
  funext fun a => Fin.ext (by match a with | ⟨0, _⟩ => rfl)
theorem idx17 (e : Fin 3200000) : idx_main_v17 (ix2 e (0 : Fin 1)) = ix1 e :=
  funext fun a => Fin.ext (by match a with | ⟨0, _⟩ => rfl)
theorem idx16 (e : Fin 3200000) (k : Fin 3) : idx_main_v16 (ix1 e) k = ix2 e k :=
  funext fun a => Fin.ext (by match a with | ⟨0, _⟩ => rfl | ⟨1, _⟩ => rfl)
theorem idx21 (e : Fin 3200000) (k : Fin 3) : idx_main_v21 (ix2 e k) = ix2 e (0 : Fin 1) :=
  funext fun a => Fin.ext (by match a with | ⟨0, _⟩ => rfl | ⟨1, _⟩ => rfl)
theorem idx33 (e : Fin 3200000) (k : Fin 3) : idx_main_v33 (ix2 e k) = ix2 e (0 : Fin 1) :=
  funext fun a => Fin.ext (by match a with | ⟨0, _⟩ => rfl | ⟨1, _⟩ => rfl)
theorem idx31 (e : Fin 3200000) : idx_main_v31 (ix2 e (0 : Fin 1)) = ix2 (0 : Fin 1) (0 : Fin 1) :=
  funext fun a => Fin.ext (by match a with | ⟨0, _⟩ => rfl | ⟨1, _⟩ => rfl)
theorem idx30 : idx_main_v30 (ix2 (0 : Fin 1) (0 : Fin 1)) = ix1 (0 : Fin 1) :=
  funext fun a => Fin.ext (by match a with | ⟨0, _⟩ => rfl)
theorem idx36 (e : Fin 3200000) (k : Fin 3) : idx_main_v36 (ix2 e k) = ix2 (0 : Fin 1) k :=
  funext fun a => Fin.ext (by match a with | ⟨0, _⟩ => rfl | ⟨1, _⟩ => rfl)
theorem idx35 (k : Fin 3) : idx_main_v35 (ix2 (0 : Fin 1) k) = ix1 k :=
  funext fun a => Fin.ext (by match a with | ⟨0, _⟩ => rfl)
theorem idx48 (n : Fin 100000) (c : Fin 4) : idx_main_v48 (ix2 n c) = ix2 n (0 : Fin 1) :=
  funext fun a => Fin.ext (by match a with | ⟨0, _⟩ => rfl | ⟨1, _⟩ => rfl)

/-! ## The gathers and scatters of this program, read at an index -/

/-- A row of the positions gathered. -/
theorem gatherPos_apply (T : FVec Ideal S100000x3 .f32) (idx : IVec S3200000x1 32) (e : Fin 3200000) (k : Fin 3) :
    Host.gather gather_S100000x3_S3200000x1_S3200000x3_1_0_n_n_0_1_13 T idx (ix2 e k)
      = T (ix2 (clampIdx 100000 (by decide) (idx (ix2 e (0 : Fin 1)))) k) :=
  gather_rows_apply (N := 100000) (C := 3) (E := 3200000) (by decide)
    gather_S100000x3_S3200000x1_S3200000x3_1_0_n_n_0_1_13_wf T idx e k

/-- A row of the features gathered. -/
theorem gatherFeat_apply (T : FVec Ideal S100000x1 .f32) (idx : IVec S3200000x1 32) (e : Fin 3200000) (q : Fin 1) :
    Host.gather gather_S100000x1_S3200000x1_S3200000x1_1_0_n_n_0_1_11 T idx (ix2 e q)
      = T (ix2 (clampIdx 100000 (by decide) (idx (ix2 e (0 : Fin 1)))) q) :=
  gather_rows_apply (N := 100000) (C := 1) (E := 3200000) (by decide)
    gather_S100000x1_S3200000x1_S3200000x1_1_0_n_n_0_1_11_wf T idx e q

/-- The four-column scatter-add at `(n, c)`. -/
theorem scatter4_apply (x : FVec Ideal S100000x4 .f32) (idx : IVec S3200000x1 32) (u : FVec Ideal S3200000x4 .f32)
    (n : Fin 100000) (c : Fin 4) :
    Host.scatterAdd scatter_S100000x4_S3200000x1_S3200000x4_1_0_0_1 x idx u (ix2 n c)
      = x (ix2 n c) + ∑ e ∈ Finset.univ.filter (fun e : Fin 3200000 => (idx (ix2 e (0 : Fin 1))).toInt = (n.val : ℤ)),
          u (ix2 e c) :=
  scatterAdd_rows_apply (N := 100000) (C := 4) (E := 3200000) scatter_S100000x4_S3200000x1_S3200000x4_1_0_0_1_wf x idx u n c

/-- The one-column scatter-add at `(n, 0)`. -/
theorem scatter1_apply (x : FVec Ideal S100000x1 .f32) (idx : IVec S3200000x1 32) (u : FVec Ideal S3200000x1 .f32)
    (n : Fin 100000) (q : Fin 1) :
    Host.scatterAdd scatter_S100000x1_S3200000x1_S3200000x1_1_0_0_1 x idx u (ix2 n q)
      = x (ix2 n q) + ∑ e ∈ Finset.univ.filter (fun e : Fin 3200000 => (idx (ix2 e (0 : Fin 1))).toInt = (n.val : ℤ)),
          u (ix2 e q) :=
  scatterAdd_rows_apply (N := 100000) (C := 1) (E := 3200000) scatter_S100000x1_S3200000x1_S3200000x1_1_0_0_1_wf x idx u n q

section
variable (p : FVec Ideal S100000x3 .f32) (f : FVec Ideal S100000x1 .f32) (w0 : FVec Ideal S1 .f32)
  (w1 : FVec Ideal S3 .f32) (src dst : IVec S3200000 32)

/-! ## The per-edge stages -/

theorem wrappedDst (e : Fin 3200000) : val_main_v5 (F := Ideal) dst (ix2 e (0 : Fin 1)) = wrap (dst (ix1 e)) := by
  rw [val_main_v5_apply, idx5]; rfl
theorem wrappedSrc (e : Fin 3200000) : val_main_v12 (F := Ideal) src (ix2 e (0 : Fin 1)) = wrap (src (ix1 e)) := by
  rw [val_main_v12_apply, idx12]; rfl
theorem wrappedDst' (e : Fin 3200000) : val_main_v28 (F := Ideal) dst (ix2 e (0 : Fin 1)) = wrap (dst (ix1 e)) := by
  rw [val_main_v28_apply, idx28]; rfl

theorem dstPos (e : Fin 3200000) (k : Fin 3) :
    val_main_v6 (F := Ideal) p dst (ix2 e k) = p (ix2 (node (dst (ix1 e))) k) := by
  unfold val_main_v6
  rw [gatherPos_apply, wrappedDst]; rfl
theorem srcPos (e : Fin 3200000) (k : Fin 3) :
    val_main_v13 (F := Ideal) p src (ix2 e k) = p (ix2 (node (src (ix1 e))) k) := by
  unfold val_main_v13
  rw [gatherPos_apply, wrappedSrc]; rfl
theorem dstFeat (e : Fin 3200000) :
    val_main_v29 (F := Ideal) f dst (ix2 e (0 : Fin 1)) = feat f dst e := by
  unfold val_main_v29
  rw [gatherFeat_apply, wrappedDst']; rfl

theorem rel_eq (e : Fin 3200000) (k : Fin 3) : val_main_v14 (F := Ideal) p src dst (ix2 e k) = rel p src dst e k := by
  rw [val_main_v14_apply, dstPos, srcPos]; rfl

theorem sumsq_eq (e : Fin 3200000) :
    val_main_v16 (F := Ideal) p src dst (ix1 e) = ∑ k : Fin 3, rel p src dst e k * rel p src dst e k := by
  rw [val_main_v16_apply]
  show Ideal.ofBits .f32 0x00000000#32 + _ = _
  rw [Ideal.ofBits_zero_f32, zero_add]
  refine Finset.sum_congr rfl fun k _ => ?_
  rw [idx16, val_main_v15_apply, rel_eq]; rfl

theorem len_eq (e : Fin 3200000) : val_main_v20 (F := Ideal) p src dst (ix2 e (0 : Fin 1)) = len p src dst e := by
  rw [val_main_v20_apply, val_main_v18_apply, val_main_v17_apply, idx17, sumsq_eq]; rfl

theorem unit_eq (e : Fin 3200000) (k : Fin 3) :
    val_main_v22 (F := Ideal) p src dst (ix2 e k) = Ideal.div (rel p src dst e k) (len p src dst e) := by
  rw [val_main_v22_apply, val_main_v21_apply, idx21, len_eq, rel_eq]; rfl

theorem msg0_eq (e : Fin 3200000) : val_main_v32 (F := Ideal) f w0 dst (ix2 e (0 : Fin 1)) = msg0 f w0 dst e := by
  rw [val_main_v32_apply, val_main_v31_apply, idx31, val_main_v30_apply, idx30, dstFeat]; rfl

theorem msg1_eq (e : Fin 3200000) (k : Fin 3) :
    val_main_v37 (F := Ideal) p f w1 src dst (ix2 e k) = msg1 p f w1 src dst e k := by
  rw [val_main_v37_apply, val_main_v36_apply, idx36, val_main_v35_apply, idx35, val_main_v34_apply, val_main_v33_apply,
    idx33, dstFeat, unit_eq]; rfl

/-! ## The joined messages -/

theorem joined_zero (e : Fin 3200000) :
    val_main_v38 (F := Ideal) p f w0 w1 src dst (ix2 e (0 : Fin 4)) = msg0 f w0 dst e := by
  unfold val_main_v38
  refine (concatenate_pair_apply_left 1 _ _ concatenates_S3200000x1_S3200000x3_S3200000x4_d1 (ix2 e (0 : Fin 4)) rfl
    (ix2 e (0 : Fin 1)) (fun b => match b with | ⟨0, _⟩ => rfl | ⟨1, _⟩ => rfl)).trans ?_
  exact msg0_eq f w0 dst e

theorem joined_succ (e : Fin 3200000) (k : Fin 3) :
    val_main_v38 (F := Ideal) p f w0 w1 src dst (ix2 e (Fin.succ k)) = msg1 p f w1 src dst e k := by
  unfold val_main_v38
  refine (concatenate_pair_apply_right 1 _ _ concatenates_S3200000x1_S3200000x3_S3200000x4_d1 (ix2 e (Fin.succ k)) rfl rfl
    (ix2 e k) (fun b => match b with
      | ⟨0, _⟩ => fun _ => rfl
      | ⟨1, _⟩ => fun h => absurd rfl h) ?_).trans ?_
  · show k.val + 1 = (Fin.succ k).val
    rfl
  · exact msg1_eq p f w1 src dst e k

/-! ## The scatter-adds and the quotient -/

theorem rawDst (e : Fin 3200000) : val_main_v40 (F := Ideal) dst (ix2 e (0 : Fin 1)) = dst (ix1 e) := by
  rw [val_main_v40_apply, idx40]
theorem rawDst' (e : Fin 3200000) : val_main_v44 (F := Ideal) dst (ix2 e (0 : Fin 1)) = dst (ix1 e) := by
  rw [val_main_v44_apply, idx44]

theorem sums_zero (n : Fin 100000) :
    val_main_v41 (F := Ideal) p f w0 w1 src dst (ix2 n (0 : Fin 4))
      = Ideal.ofBits .f32 0x00000000#32 + ∑ e ∈ into dst n, msg0 f w0 dst e := by
  unfold val_main_v41
  rw [scatter4_apply]
  simp only [rawDst, joined_zero]
  rfl

theorem sums_succ (n : Fin 100000) (k : Fin 3) :
    val_main_v41 (F := Ideal) p f w0 w1 src dst (ix2 n (Fin.succ k))
      = Ideal.ofBits .f32 0x00000000#32 + ∑ e ∈ into dst n, msg1 p f w1 src dst e k := by
  unfold val_main_v41
  rw [scatter4_apply]
  simp only [rawDst, joined_succ]
  rfl

theorem count_eq (n : Fin 100000) : val_main_v47 (F := Ideal) dst (ix2 n (0 : Fin 1)) = count dst n := by
  rw [val_main_v47_apply]
  unfold val_main_v45
  rw [scatter1_apply]
  simp only [rawDst']
  rfl

/-- THE REFERENCE'S RESULT is the specification's. -/
theorem result_eq : val_main_v49 (F := Ideal) p f w0 w1 src dst = result p f w0 w1 src dst := by
  funext i
  obtain ⟨n, c, rfl⟩ : ∃ (n : Fin 100000) (c : Fin 4), i = ix2 n c := ⟨i 0, i 1, eq_ix2 i⟩
  rw [val_main_v49_apply, val_main_v48_apply, idx48, count_eq]
  refine Fin.cases ?_ (fun k => ?_) c
  · rw [sums_zero, result_zero]; rfl
  · rw [sums_succ, result_succ]; rfl

end

end Cert.ReferenceIdeal.RefSpec

end
-- ==== Proof.lean ====
/-
  The kernel program and its reference compute, on the extended reals, the same scatter-mean of per-edge messages.

  For 3200000 edges over 100000 nodes each program forms per edge the relative position of its two nodes, its length
  guarded from below by a small constant, the destination's scalar feature times a weight (the scalar message) and
  that feature times the normalised relative position times three weights (the direction messages); it adds the
  messages up per destination node and divides by the number of edges received, at least one (EdgeSpec.lean states
  this as ONE function of the six argument arrays).  The reference does it with row gathers, a join of the four
  message columns, two scatter-adds and a quotient (RefSpec.lean).  The kernel program transposes and stacks the node
  tables, gathers columns, computes the messages and a row of ones block by block in a 25-step grid
  (KernelBlock.lean: what one step leaves; KernelArray.lean: the steps' blocks tile one array; KernelHost.lean: that
  array's rows are the messages), then transposes, scatter-adds all five rows at once and divides the first four
  sums by the fifth (KernelTail.lean, KernelRun.lean).  The two differ only in the arrangement of the same terms:
  no law beyond reading each layout step at an index is used, and the precondition is never opened.

  The three frames: the kernel programs' are the generated frame certificates; the reference has no kernel, and its
  frame is its generated run with the result dropped.  The idealization rewrote nothing, so there is nothing to
  preserve.
-/
import proofs.«109773_j34823594836411_2_alg».proof.Defs
import proofs.«109773_j34823594836411_2_alg».proof.Proof.Gen.Kernel
import proofs.«109773_j34823594836411_2_alg».proof.Proof.Gen.Kernel.Skeleton
import proofs.«109773_j34823594836411_2_alg».proof.Proof.Gen.Kernel.Launch
import proofs.«109773_j34823594836411_2_alg».proof.Proof.Gen.Kernel.Points
import proofs.«109773_j34823594836411_2_alg».proof.Proof.Gen.Kernel.Frame
import proofs.«109773_j34823594836411_2_alg».proof.Proof.Gen.KernelIdeal
import proofs.«109773_j34823594836411_2_alg».proof.Proof.Gen.KernelIdeal.Skeleton
import proofs.«109773_j34823594836411_2_alg».proof.Proof.Gen.KernelIdeal.Launch
import proofs.«109773_j34823594836411_2_alg».proof.Proof.Gen.KernelIdeal.Points
import proofs.«109773_j34823594836411_2_alg».proof.Proof.Gen.KernelIdeal.Frame
import proofs.«109773_j34823594836411_2_alg».proof.Proof.Gen.ReferenceIdeal
import proofs.«109773_j34823594836411_2_alg».proof.Proof.Gen.ReferenceIdeal.Run
import proofs.«109773_j34823594836411_2_alg».proof.Proof.Gen.ReferenceIdeal.Read
import proofs.«109773_j34823594836411_2_alg».proof.Proof.Gen.Pre_finite_inputs
import proofs.«109773_j34823594836411_2_alg».proof.Proof.KernelRun
import proofs.«109773_j34823594836411_2_alg».proof.Proof.RefSpec
import Idealize.ShloMosaic.Adequacy
import Idealize.ShloMosaic.Init

noncomputable section

namespace Cert.Proof

open Idealize.ShloMosaic Idealize.SL.Sem

/-- The word-level kernel program terminates without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's result of their (agreeing) arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefSpec.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
